-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S1024x784 : Shape := ⟨2, ![1024, 784]⟩
abbrev S10x1024 : Shape := ⟨2, ![10, 1024]⟩
abbrev S1024 : Shape := ⟨1, ![1024]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S10x1024 : S_.BroadcastsInDim S10x1024 (![] : Fin 0 → Fin S10x1024.rank)
  reducesTo_S10x1024_S_d0_1 : S10x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S65536x784 .f32) (main_arg1 : FVec F S1024x784 .f32) (main_arg2 : FVec F S10x1024 .f32) (main_arg3 : FVec F S1024 .f32) (main_arg4 : FVec F S1024 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S10x1024 .f32 := Host.absf main_arg2
  let main_cst_2 : FVec F S_ .f32 := constant S_ .f32 0x7F800000#32
  let main_v10 : FVec F S10x1024 .f32 := broadcastInDim S10x1024 ![] bcast_S_S10x1024 main_cst_2
  let main_v11 : IVec S10x1024 1 := cmpf .olt main_v9 main_v10
  let main_c_3 : IVec S_ 1 := constantI S_ 1 1#1
  let main_v12 : IVec S_ 1 := (fun x v => Host.reduce IntOp.andi x v reducesTo_S10x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S65536x784 : Shape := ⟨2, ![65536, 784]⟩
abbrev S1024x784 : Shape := ⟨2, ![1024, 784]⟩
abbrev S10x1024 : Shape := ⟨2, ![10, 1024]⟩
abbrev S1024 : Shape := ⟨1, ![1024]⟩
abbrev S_ : Shape := ⟨0, ![]⟩
abbrev S1024x1 : Shape := ⟨2, ![1024, 1]⟩
abbrev S784x1024 : Shape := ⟨2, ![784, 1024]⟩
abbrev S10 : Shape := ⟨1, ![10]⟩
abbrev S10x1 : Shape := ⟨2, ![10, 1]⟩
abbrev S1024x10 : Shape := ⟨2, ![1024, 10]⟩
abbrev S65536x1024 : Shape := ⟨2, ![65536, 1024]⟩
abbrev S16x1024 : Shape := ⟨2, ![16, 1024]⟩
abbrev S512x784 : Shape := ⟨2, ![512, 784]⟩
abbrev S512x1024 : Shape := ⟨2, ![512, 1024]⟩
abbrev S8x1024 : Shape := ⟨2, ![8, 1024]⟩
abbrev S1x1024 : Shape := ⟨2, ![1, 1024]⟩
abbrev S65536x10 : Shape := ⟨2, ![65536, 10]⟩
abbrev S1024x1024 : Shape := ⟨2, ![1024, 1024]⟩

abbrev nBuf : Space → Nat
  | .hbm => 63
  | .vmem => 16
  | .smem => 0
  | _ => 0

abbrev bufTy : (tb : Table) → Fin (tcTables nBuf tb) → BufTy
  | .hbm, ⟨0, _⟩ => ⟨S65536x784, .f32⟩
  | .hbm, ⟨1, _⟩ => ⟨S1024x784, .f32⟩
  | .hbm, ⟨2, _⟩ => ⟨S10x1024, .f32⟩
  | .hbm, ⟨3, _⟩ => ⟨S1024, .f32⟩
  | .hbm, ⟨4, _⟩ => ⟨S1024, .f32⟩
  | .hbm, ⟨5, _⟩ => ⟨S1024x784, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x784, .f32⟩
  | .hbm, ⟨13, _⟩ => ⟨S1024x784, .f32⟩
  | .hbm, ⟨14, _⟩ => ⟨S1024x784, .f32⟩
  | .hbm, ⟨15, _⟩ => ⟨S784x1024, .f32⟩
  | .hbm, ⟨16, _⟩ => ⟨S10x1024, .f32⟩
  | .hbm, ⟨17, _⟩ => ⟨S_, .f32⟩
  | .hbm, ⟨18, _⟩ => ⟨S10, .f32⟩
  | .hbm, ⟨19, _⟩ => ⟨S10x1, .f32⟩
  | .hbm, ⟨20, _⟩ => ⟨S_, .f32⟩
  | .hbm, ⟨21, _⟩ => ⟨S10x1, .f32⟩
  | .hbm, ⟨22, _⟩ => ⟨S10x1, .f32⟩
  | .hbm, ⟨23, _⟩ => ⟨S10x1024, .f32⟩
  | .hbm, ⟨24, _⟩ => ⟨S10x1024, .f32⟩
  | .hbm, ⟨25, _⟩ => ⟨S10x1024, .f32⟩
  | .hbm, ⟨26, _⟩ => ⟨S1024x10, .f32⟩
  | .hbm, ⟨27, _⟩ => ⟨S1024x10, .bf16⟩
  | .hbm, ⟨28, _⟩ => ⟨S65536x1024, .f32⟩
  | .hbm, ⟨29, _⟩ => ⟨S16x1024, .f32⟩
  | .hbm, ⟨30, _⟩ => ⟨S16x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S65536x10, .f32⟩
  | .local _ .vmem, ⟨0, _⟩ => ⟨S512x784, .f32⟩
  | .local _ .vmem, ⟨1, _⟩ => ⟨S512x784, .f32⟩
  | .local _ .vmem, ⟨2, _⟩ => ⟨S784x1024, .f32⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x10, .bf16⟩
  | .local _ .vmem, ⟨14, _⟩ => ⟨S1024x10, .f32⟩
  | .local _ .vmem, ⟨15, _⟩ => ⟨S1024x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [BitOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x10 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S1024x784_S1024_d1 : S1024x784.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x784_0_1 : S1024x1.BroadcastsInDim S1024x784 (![0, 1] : Fin 2 → Fin S1024x784.rank)
  transposes_S1024x784_S784x1024_1_0 : S1024x784.Transposes [1, 0] S784x1024
  reducesTo_S10x1024_S10_d1 : S10x1024.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x1024_0_1 : S10x1.BroadcastsInDim S10x1024 (![0, 1] : Fin 2 → Fin S10x1024.rank)
  transposes_S10x1024_S1024x10_1_0 : S10x1024.Transposes [1, 0] S1024x10
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  inb_S512x784_S512x784_0_0 : ∀ a, (![0, 0] : Fin 2 → Nat) a + S512x784.size a ≤ S512x784.size a
  h_S512x784 : 0 < S512x784.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  shapeCasts_S8x1024_S8x1024 : S8x1024.ShapeCasts S8x1024
  shapeCasts_S1x1024_S1x1024 : S1x1024.ShapeCasts S1x1024
  broadcasts_S1x1024_S8x1024 : S1x1024.Broadcasts S8x1024
  slices_S16x1024_S1x1024_0_0 : S16x1024.Slices ![0, 0] S1x1024
  shapeCasts_S1x1024_S1024 : S1x1024.ShapeCasts S1024
  slices_S16x1024_S1x1024_8_0 : S16x1024.Slices ![8, 0] S1x1024
  bcast_S_S1024 : S_.BroadcastsInDim S1024 (![] : Fin 0 → Fin S1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  dot_S512x784_S784x1024_S512x1024_1_0_0_1_n_n_wf : DotDims.WF S512x784 S784x1024 S512x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S65536x784.size a
  hwx0_0 : ∀ i : grid0.Coords, EltTy.bits .f32 = 32 ∨ (Rect.block (s := S65536x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S65536x1024.size a
  hwx0_2 : ∀ i : grid0.Coords, EltTy.bits .f32 = 32 ∨ (Rect.block (s := S65536x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S65536x1024.size a
  hwx1_0 : ∀ i : grid1.Coords, EltTy.bits .f32 = 32 ∨ (Rect.block (s := S65536x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x10.size a ≤ S1024x10.size a
  hwx1_3 : ∀ i : grid1.Coords, EltTy.bits .bf16 = 32 ∨ (Rect.block (s := S1024x10) S1024x10.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x10.size a ≤ S65536x10.size a
  hwx1_4 : ∀ i : grid1.Coords, EltTy.bits .f32 = 32 ∨ (Rect.block (s := S65536x10) S1024x10.size (cc1_transform_4 i) (hinb1_4 i)).WholeWords (EltTy.packing .f32)

variable [Facts₀]

def dot_S512x784_S784x1024_S512x1024_1_0_0_1_n_n : DotDims S512x784 S784x1024 S512x1024 where
  lhsContracting := [1]
  rhsContracting := [0]
  lhsNonContracting := [0]
  rhsNonContracting := [1]
  lhsBatch := []
  rhsBatch := []
  wf := dot_S512x784_S784x1024_S512x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_1) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_2) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1024x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S65536x784 : Shape := ⟨2, ![65536, 784]⟩
abbrev S1024x784 : Shape := ⟨2, ![1024, 784]⟩
abbrev S10x1024 : Shape := ⟨2, ![10, 1024]⟩
abbrev S1024 : Shape := ⟨1, ![1024]⟩
abbrev S_ : Shape := ⟨0, ![]⟩
abbrev S1024x1 : Shape := ⟨2, ![1024, 1]⟩
abbrev S784x1024 : Shape := ⟨2, ![784, 1024]⟩
abbrev S65536x1024 : Shape := ⟨2, ![65536, 1024]⟩
abbrev S1x1024 : Shape := ⟨2, ![1, 1024]⟩
abbrev S10 : Shape := ⟨1, ![10]⟩
abbrev S10x1 : Shape := ⟨2, ![10, 1]⟩
abbrev S1024x10 : Shape := ⟨2, ![1024, 10]⟩
abbrev S65536x10 : Shape := ⟨2, ![65536, 10]⟩

abbrev nBuf : Space → Nat
  | .hbm => 60
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S1024x784, .f32⟩
  | .hbm, ⟨2, _⟩ => ⟨S10x1024, .f32⟩
  | .hbm, ⟨3, _⟩ => ⟨S1024, .f32⟩
  | .hbm, ⟨4, _⟩ => ⟨S1024, .f32⟩
  | .hbm, ⟨5, _⟩ => ⟨S1024x784, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x784, .f32⟩
  | .hbm, ⟨13, _⟩ => ⟨S1024x784, .f32⟩
  | .hbm, ⟨14, _⟩ => ⟨S1024x784, .f32⟩
  | .hbm, ⟨15, _⟩ => ⟨S784x1024, .f32⟩
  | .hbm, ⟨16, _⟩ => ⟨S65536x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S10x1024, .f32⟩
  | .hbm, ⟨49, _⟩ => ⟨S_, .f32⟩
  | .hbm, ⟨50, _⟩ => ⟨S10, .f32⟩
  | .hbm, ⟨51, _⟩ => ⟨S10x1, .f32⟩
  | .hbm, ⟨52, _⟩ => ⟨S_, .f32⟩
  | .hbm, ⟨53, _⟩ => ⟨S10x1, .f32⟩
  | .hbm, ⟨54, _⟩ => ⟨S10x1, .f32⟩
  | .hbm, ⟨55, _⟩ => ⟨S10x1024, .f32⟩
  | .hbm, ⟨56, _⟩ => ⟨S10x1024, .f32⟩
  | .hbm, ⟨57, _⟩ => ⟨S10x1024, .f32⟩
  | .hbm, ⟨58, _⟩ => ⟨S1024x10, .f32⟩
  | .hbm, ⟨59, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  reducesTo_S1024x784_S1024_d1 : S1024x784.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x784_0_1 : S1024x1.BroadcastsInDim S1024x784 (![0, 1] : Fin 2 → Fin S1024x784.rank)
  transposes_S1024x784_S784x1024_1_0 : S1024x784.Transposes [1, 0] S784x1024
  reducesTo_S65536x1024_S1024_d0 : S65536x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S10x1024_S10_d1 : S10x1024.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x1024_0_1 : S10x1.BroadcastsInDim S10x1024 (![0, 1] : Fin 2 → Fin S10x1024.rank)
  transposes_S10x1024_S1024x10_1_0 : S10x1024.Transposes [1, 0] S1024x10
  dot_S65536x784_S784x1024_S65536x1024_1_0_0_1_n_n_wf : DotDims.WF S65536x784 S784x1024 S65536x1024 [1] [0] [0] [1] [] []
  dot_S65536x1024_S1024x10_S65536x10_1_0_0_1_n_n_wf : DotDims.WF S65536x1024 S1024x10 S65536x10 [1] [0] [0] [1] [] []

variable [Facts₀]

def dot_S65536x784_S784x1024_S65536x1024_1_0_0_1_n_n : DotDims S65536x784 S784x1024 S65536x1024 where
  lhsContracting := [1]
  rhsContracting := [0]
  lhsNonContracting := [0]
  rhsNonContracting := [1]
  lhsBatch := []
  rhsBatch := []
  wf := dot_S65536x784_S784x1024_S65536x1024_1_0_0_1_n_n_wf
def dot_S65536x1024_S1024x10_S65536x10_1_0_0_1_n_n : DotDims S65536x1024 S1024x10 S65536x10 where
  lhsContracting := [1]
  rhsContracting := [0]
  lhsNonContracting := [0]
  rhsNonContracting := [1]
  lhsBatch := []
  rhsBatch := []
  wf := dot_S65536x1024_S1024x10_S65536x10_1_0_0_1_n_n_wf

class Facts : Prop extends Facts₀ where

variable [Facts]
-- ==== Proof.KernelRun.lean ====
/-
  The idealized kernel's run with its result named.  @main is four segments — a stretch of host operations, the first
  pipelined region, a second stretch, the second region — and the contents of every buffer at each boundary are a fold
  from the launch memory (`W0` … `W4` of the generated frame).  The frame theorem keeps, of the last boundary, only the
  argument arrays; here the result array `main_v47` is kept as well, at the last boundary's contents `W4`.
-/
import proofs.«163994_j9869834846709_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result array at the last boundary's
    contents and the argument arrays as launched. -/
theorem run_value : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Region1.lean ====
/-
  The second region's result.  At a point `t` of its 64-point grid the body loads rows [1024·t, 1024·t + 1024) of the
  hidden matrix, the one-row scale and shift, and the whole second weight matrix; it forms `h · scale + shift` entry
  by entry, takes its sign, and multiplies by the weights into a zero accumulator.  So the block it writes back is rows
  [1024·t, 1024·t + 1024) of ONE matrix: the product of the signs of `H · scale + shift` with the weights.  The blocks
  tile the 65536 rows, so after the last point the result array is that matrix.
-/
import proofs.«163994_j9869834846709_2_alg».proof.Proof.Gen.KernelIdeal.Frame
import proofs.«163994_j9869834846709_2_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem
open Idealize.ShloMosaic.Pipeline (Dat)

/-- The binarised activation: the sign of `h · scale + shift`, the scale and the shift one-row matrices. -/
def act {M K : ℕ} (Hm : Mat M K) (sc sh : Mat 1 K) : Mat M K :=
  fun i => Ideal.sign (Hm i * sc (ix2 (0 : Fin 1) (i 1)) + sh (ix2 (0 : Fin 1) (i 1)))

theorem act_apply {M K : ℕ} (Hm : Mat M K) (sc sh : Mat 1 K) (p : Fin M) (k : Fin K) :
    act Hm sc sh (ix2 p k) = Ideal.sign (Hm (ix2 p k) * sc (ix2 (0 : Fin 1) k) + sh (ix2 (0 : Fin 1) k)) := rfl

/-- The body's stored value: the product of the binarised activation of the loaded rows with the loaded weights. -/
theorem pay_eq (x0 : Vec Ideal S1024x1024 .f32) (x1 x2 : Vec Ideal S1x1024 .f32) (x3 : Vec Ideal S1024x10 .bf16) :
    k1_pay1 (F := Ideal) x0 x1 x2 x3 = mm (M := 1024) (K := 1024) (N := 10) (act (M := 1024) (K := 1024) x0 x1 x2) x3 := by
  unfold k1_pay1
  refine (matmul_plain_zero (M := 1024) (K := 1024) (N := 10) none _ _).trans ?_
  refine congr (congrArg mm ?_) (shapeCast_self _ _)
  funext i
  obtain ⟨p, q, rfl⟩ : ∃ (p : Fin 1024) (q : Fin 1024), i = ix2 p q := ⟨i 0, i 1, eq_ix2 i⟩
  refine (Ideal.jnp_sign_eq_sign_f32 _).trans (congrArg Ideal.sign ?_)
  show (shapeCast S1024x1024 x0 _ (ix2 p q)) * (broadcastTo S1024x1024 (shapeCast S1x1024 x1 _) _ (ix2 p q))
      + broadcastTo S1024x1024 (shapeCast S1x1024 x2 _) _ (ix2 p q) = _
  rw [shapeCast_self, shapeCast_self, shapeCast_self, broadcastTo_1b_ab_apply, broadcastTo_1b_ab_apply]

/-! ## From the blocks to the array -/

/-- The result as one function of the four arrays the region reads. -/
def result (Hm : Mat 65536 1024) (sc sh : Mat 1 1024) (W : Mat 1024 10) : Mat 65536 10 := mm (act Hm sc sh) W

/-- The block law: when the loaded rows are rows [1024·tv, 1024·tv + 1024) of `Hm` and the other operands are loaded
    whole, an entry of the block's product is the entry of the whole product at the shifted row. -/
theorem point_law (x0 : Mat 1024 1024) (x1 x2 : Mat 1 1024) (x3 : Mat 1024 10)
    (Hm : Mat 65536 1024) (sc sh : Mat 1 1024) (W : Mat 1024 10) (tv : ℕ)
    (h0 : ∀ (x : (⟨2, ![1024, 1024]⟩ : Shape).Idx) (k : (⟨2, ![65536, 1024]⟩ : Shape).Idx),
      (k 0).val = 1024 * tv + (x 0).val → (k 1).val = (x 1).val → x0 x = Hm k)
    (h1 : x1 = sc) (h2 : x2 = sh) (h3 : x3 = W)
    (y : (⟨2, ![1024, 10]⟩ : Shape).Idx) (i : (⟨2, ![65536, 10]⟩ : Shape).Idx)
    (hi0 : (i 0).val = 1024 * tv + (y 0).val) (hi1 : (i 1).val = (y 1).val) :
    mm (act x0 x1 x2) x3 y = result Hm sc sh W i := by
  subst h1 h2 h3
  obtain ⟨p, o, rfl⟩ : ∃ (p : Fin 1024) (o : Fin 10), y = ix2 p o := ⟨y 0, y 1, eq_ix2 y⟩
  obtain ⟨P, O, rfl⟩ : ∃ (P : Fin 65536) (O : Fin 10), i = ix2 P O := ⟨i 0, i 1, eq_ix2 i⟩
  have hO : O = o := Fin.ext hi1
  subst hO
  show (∑ k : Fin 1024, act x0 x1 x2 (ix2 p k) * x3 (ix2 k O)) = ∑ k : Fin 1024, act Hm x1 x2 (ix2 P k) * x3 (ix2 k O)
  refine Finset.sum_congr rfl fun k _ => ?_
  rw [act_apply, act_apply, h0 (ix2 p k) (ix2 P k) hi0 rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of the hidden matrix and of the result is the point's number,
    every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first window's block at point `t` is rows [1024·t, 1024·t + 1024) of the hidden matrix. -/
theorem iblk_hidden (c : Dev nD) (t : Fin cfg1.N) (x : S1024x1024.Idx) (k : S65536x1024.Idx)
    (hk0 : (k 0).val = 1024 * t.val + (x 0).val) (hk1 : (k 1).val = (x 1).val) :
    (iblk1 V c 0 t : Vec Ideal S1024x1024 .f32) x = (V c (Pipeline.arrRef spec1 0) : S65536x1024.Idx → EReal) k := by
  obtain ⟨e00, e01, -⟩ := idx_facts t
  unfold iblk1
  rw [View.read_apply]
  show (V c (Pipeline.arrRef spec1 0) : S65536x1024.Idx → EReal) (((cfg1.win 0).blk t).view.emb x) = _
  refine congrArg (V c (Pipeline.arrRef spec1 0) : S65536x1024.Idx → EReal) (funext fun a => Fin.ext ?_)
  match a with
  | ⟨0, _⟩ => show win1_0.index t (0 : Fin 2) * 1024 + 1 * (x 0).val = (k 0).val; rw [e00, hk0]; omega
  | ⟨1, _⟩ => show win1_0.index t (1 : Fin 2) * 1024 + 1 * (x 1).val = (k 1).val; rw [e01, hk1]; omega

/-- The scale row is loaded whole. -/
theorem iblk_scale (c : Dev nD) (t : Fin cfg1.N) :
    (iblk1 V c 1 t : Vec Ideal S1x1024 .f32) = (V c (Pipeline.arrRef spec1 1) : S1x1024.Idx → EReal) := by
  obtain ⟨-, -, e10, e11, -⟩ := idx_facts t
  funext x
  unfold iblk1
  rw [View.read_apply]
  show (V c (Pipeline.arrRef spec1 1) : S1x1024.Idx → EReal) (((cfg1.win 1).blk t).view.emb x) = _
  refine congrArg (V c (Pipeline.arrRef spec1 1) : S1x1024.Idx → EReal) (funext fun a => Fin.ext ?_)
  match a with
  | ⟨0, _⟩ => show win1_1.index t (0 : Fin 2) * 1 + 1 * (x 0).val = (x 0).val; rw [e10]; omega
  | ⟨1, _⟩ => show win1_1.index t (1 : Fin 2) * 1024 + 1 * (x 1).val = (x 1).val; rw [e11]; omega

/-- The shift row is loaded whole. -/
theorem iblk_shift (c : Dev nD) (t : Fin cfg1.N) :
    (iblk1 V c 2 t : Vec Ideal S1x1024 .f32) = (V c (Pipeline.arrRef spec1 2) : S1x1024.Idx → EReal) := by
  obtain ⟨-, -, -, -, e20, e21, -⟩ := idx_facts t
  funext x
  unfold iblk1
  rw [View.read_apply]
  show (V c (Pipeline.arrRef spec1 2) : S1x1024.Idx → EReal) (((cfg1.win 2).blk t).view.emb x) = _
  refine congrArg (V c (Pipeline.arrRef spec1 2) : S1x1024.Idx → EReal) (funext fun a => Fin.ext ?_)
  match a with
  | ⟨0, _⟩ => show win1_2.index t (0 : Fin 2) * 1 + 1 * (x 0).val = (x 0).val; rw [e20]; omega
  | ⟨1, _⟩ => show win1_2.index t (1 : Fin 2) * 1024 + 1 * (x 1).val = (x 1).val; rw [e21]; omega

/-- The second weight matrix is loaded whole. -/
theorem iblk_weights (c : Dev nD) (t : Fin cfg1.N) :
    (iblk1 V c 3 t : Vec Ideal S1024x10 .bf16) = (V c (Pipeline.arrRef spec1 3) : S1024x10.Idx → EReal) := by
  obtain ⟨-, -, -, -, -, -, e30, e31, -⟩ := idx_facts t
  funext x
  unfold iblk1
  rw [View.read_apply]
  show (V c (Pipeline.arrRef spec1 3) : S1024x10.Idx → EReal) (((cfg1.win 3).blk t).view.emb x) = _
  refine congrArg (V c (Pipeline.arrRef spec1 3) : S1024x10.Idx → EReal) (funext fun a => Fin.ext ?_)
  match a with
  | ⟨0, _⟩ => show win1_3.index t (0 : Fin 2) * 1024 + 1 * (x 0).val = (x 0).val; rw [e30]; omega
  | ⟨1, _⟩ => show win1_3.index t (1 : Fin 2) * 10 + 1 * (x 1).val = (x 1).val; rw [e31]; omega

/-- What point `t` writes back is block `t` of the result. -/
theorem flushed_eq (c : Dev nD) (t : Fin cfg1.N) :
    (dat1 V c).flushed 4 t = ((cfg1.win 4).blk t).view.read (Elt Ideal)
      (result (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S1024x1024) hz, View.ld_unit_zero (S := S1x1024) hz, View.ld_unit_zero (S := S1024x10) hz]
  rw [pay_eq]
  obtain ⟨-, -, -, -, -, -, -, -, e40, e41⟩ := idx_facts t
  funext y
  refine point_law (iblk1 V c 0 t) (iblk1 V c 1 t) (iblk1 V c 2 t) (iblk1 V c 3 t)
    (V c (Pipeline.arrRef spec1 0)) (V c (Pipeline.arrRef spec1 1)) (V c (Pipeline.arrRef spec1 2)) (V c (Pipeline.arrRef spec1 3)) t.val
    (fun x k hk0 hk1 => iblk_hidden V c t x k hk0 hk1) (iblk_scale V c t) (iblk_shift V c t) (iblk_weights V c t)
    y (((cfg1.win 4).blk t).view.emb y) ?_ ?_
  · show win1_4.index t (0 : Fin 2) * 1024 + 1 * (y 0).val = 1024 * t.val + (y 0).val
    rw [e40]; omega
  · show win1_4.index t (1 : Fin 2) * 10 + 1 * (y 1).val = (y 1).val
    rw [e41]; omega

/-- An index of the result array is in point `t`'s block iff each coordinate is in the block's range on its axis. -/
theorem mem_blk (t : Fin cfg1.N) (i : S65536x10.Idx) :
    i ∈ ((cfg1.win 4).blk t).view.set ↔ ∀ a : Fin 2, win1_4.index t a * S1024x10.size a ≤ (i a).val ∧ (i a).val < win1_4.index t a * S1024x10.size a + S1024x10.size a := by
  show i ∈ ((View.whole main_v47).slice (win1_4.rect t)).set ↔ _
  rw [View.set_slice_whole, Rect.mem_set_unit]
  exact Iff.rfl

/-- Row `r` of the result is in the block of point `r / 1024`. -/
theorem cover (i : S65536x10.Idx) : ∃ t : Fin cfg1.N, (cfg1.win 4).flush t = true ∧ i ∈ ((cfg1.win 4).blk t).view.set := by
  have hi0 : (i 0).val < 65536 := (i 0).isLt
  have hi1 : (i 1).val < 10 := (i 1).isLt
  have ht : (i 0).val / 1024 < cfg1.N := by show (i 0).val / 1024 < 64; omega
  obtain ⟨-, -, -, -, -, -, -, -, e40, e41⟩ := idx_facts ⟨(i 0).val / 1024, ht⟩
  refine ⟨⟨(i 0).val / 1024, ht⟩, flush1_4 _, ?_⟩
  rw [mem_blk]
  intro a
  match a with
  | ⟨0, _⟩ =>
    show win1_4.index ⟨(i 0).val / 1024, ht⟩ (0 : Fin 2) * 1024 ≤ (i 0).val ∧ (i 0).val < win1_4.index ⟨(i 0).val / 1024, ht⟩ (0 : Fin 2) * 1024 + 1024
    rw [e40]; show (i 0).val / 1024 * 1024 ≤ (i 0).val ∧ (i 0).val < (i 0).val / 1024 * 1024 + 1024; omega
  | ⟨1, _⟩ =>
    show win1_4.index ⟨(i 0).val / 1024, ht⟩ (1 : Fin 2) * 10 ≤ (i 1).val ∧ (i 1).val < win1_4.index ⟨(i 0).val / 1024, ht⟩ (1 : Fin 2) * 10 + 10
    rw [e41]; omega

/-- After the last point the result array is the product of the binarised activation with the weights, of the
    arrays as the region found them. -/
theorem final (c : Dev nD) : (dat1 V c).arrAt 4 cfg1.N
    = result (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) cover

end Cert.KernelIdeal.Region1

end
-- ==== Proof.Region0a.lean ====
/-
  The first region's body, read as values.  At a grid point the body loads a block of 512 rows of the input and the
  whole first weight matrix, stores their product as the block of the hidden matrix, and adds the product's column sums
  (and column sums of squares) into two 8-row accumulators, every row of an accumulator receiving the same sums; at
  the first point of each core's run of 64 points the accumulators are zeroed first.  The body has two control cases
  (zeroing or not); in each the run leaves, in every output buffer, the payload of its last covering store over the
  loaded blocks, and for an accumulator over what it held before.
-/
import proofs.«163994_j9869834846709_2_alg».proof.Proof.Gen.KernelIdeal.Frame
import proofs.«163994_j9869834846709_2_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen Cert.Dense
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

theorem hz : (![0, 0] : Fin 2 → Nat) = fun _ => 0 := funext fun a => by fin_cases a <;> rfl

/-! ## What each case of the body leaves in the three output buffers, over the loaded blocks -/

theorem out0_A_2_eq (c : Dev nD) (i : grid0.Coords) (arg2 : Memref sig .tc .vmem S512x784 .f32) (harg2 : arg2.IsWhole) (arg3 : Memref sig .tc .vmem S784x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (x0 : Vec F S512x784 .f32) (x1 : Vec F S784x1024 .f32) :
    out0_A_2 c i arg2 harg2 arg3 harg3 arg4 harg4 arg5 harg5 arg6 harg6 hc0 x0 x1 = k0_pay3 x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  rw [View.canon_unit_zero hz]
  simp only [View.readAt_eq_ld, harg2.read_unread, harg3.read_unread, harg5.read_unread, harg6.read_unread, View.ld_unit_zero (S := S512x784) hz, View.ld_unit_zero (S := S784x1024) hz, View.ld_unit_zero (S := S8x1024) hz]
theorem out0_A_3_eq (c : Dev nD) (i : grid0.Coords) (arg2 : Memref sig .tc .vmem S512x784 .f32) (harg2 : arg2.IsWhole) (arg3 : Memref sig .tc .vmem S784x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (x0 : Vec F S512x784 .f32) (x1 : Vec F S784x1024 .f32) :
    out0_A_3 c i arg2 harg2 arg3 harg3 arg4 harg4 arg5 harg5 arg6 harg6 hc0 x0 x1 = k0_pay4 x0 x1 (k0_pay1 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero hz, View.readCov_unit_zero (S := S8x1024) arg5.view hz]
  simp only [View.readAt_eq_ld, harg2.read_unread, harg3.read_unread, harg5.read_unread, harg6.read_unread, View.ld_unit_zero (S := S512x784) hz, View.ld_unit_zero (S := S784x1024) hz, View.ld_unit_zero (S := S8x1024) hz]
theorem out0_A_4_eq (c : Dev nD) (i : grid0.Coords) (arg2 : Memref sig .tc .vmem S512x784 .f32) (harg2 : arg2.IsWhole) (arg3 : Memref sig .tc .vmem S784x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (x0 : Vec F S512x784 .f32) (x1 : Vec F S784x1024 .f32) :
    out0_A_4 c i arg2 harg2 arg3 harg3 arg4 harg4 arg5 harg5 arg6 harg6 hc0 x0 x1 = k0_pay5 x0 x1 (k0_pay2 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero hz, View.readCov_unit_zero (S := S8x1024) arg6.view hz]
  simp only [View.readAt_eq_ld, harg2.read_unread, harg3.read_unread, harg5.read_unread, harg6.read_unread, View.ld_unit_zero (S := S512x784) hz, View.ld_unit_zero (S := S784x1024) hz, View.ld_unit_zero (S := S8x1024) hz]
theorem out0_B_2_eq (c : Dev nD) (i : grid0.Coords) (arg2 : Memref sig .tc .vmem S512x784 .f32) (harg2 : arg2.IsWhole) (arg3 : Memref sig .tc .vmem S784x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (x0 : Vec F S512x784 .f32) (x1 : Vec F S784x1024 .f32) (xo3 xo4 : Vec F S8x1024 .f32) :
    out0_B_2 c i arg2 harg2 arg3 harg3 arg4 harg4 arg5 harg5 arg6 harg6 hc0 x0 x1 xo3 xo4 = k0_pay3 x0 x1 := by
  unfold out0_B_2
  rw [View.read_writes_eq_canon _ _ _ (cover0_B_2 c i arg2 harg2 arg3 harg3 arg4 harg4 arg5 harg5 arg6 harg6 hc0 x0 x1 xo3 xo4)]
  unfold kernelRun0_B
  dsimp only
  rw [View.canon_unit_zero hz]
  simp only [View.readAt_eq_ld, harg2.read_unread, harg3.read_unread, harg5.read_unread, harg6.read_unread, View.ld_unit_zero (S := S512x784) hz, View.ld_unit_zero (S := S784x1024) hz, View.ld_unit_zero (S := S8x1024) hz]
theorem out0_B_3_eq (c : Dev nD) (i : grid0.Coords) (arg2 : Memref sig .tc .vmem S512x784 .f32) (harg2 : arg2.IsWhole) (arg3 : Memref sig .tc .vmem S784x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (x0 : Vec F S512x784 .f32) (x1 : Vec F S784x1024 .f32) (xo3 xo4 : Vec F S8x1024 .f32) :
    out0_B_3 c i arg2 harg2 arg3 harg3 arg4 harg4 arg5 harg5 arg6 harg6 hc0 x0 x1 xo3 xo4 = k0_pay4 x0 x1 xo3 := by
  unfold out0_B_3
  rw [View.read_writes_eq_canon _ _ _ (cover0_B_3 c i arg2 harg2 arg3 harg3 arg4 harg4 arg5 harg5 arg6 harg6 hc0 x0 x1 xo3 xo4)]
  unfold kernelRun0_B
  dsimp only
  rw [View.canon_unit_zero hz]
  simp only [View.readAt_eq_ld, harg2.read_unread, harg3.read_unread, harg5.read_unread, harg6.read_unread, View.ld_unit_zero (S := S512x784) hz, View.ld_unit_zero (S := S784x1024) hz, View.ld_unit_zero (S := S8x1024) hz]
theorem out0_B_4_eq (c : Dev nD) (i : grid0.Coords) (arg2 : Memref sig .tc .vmem S512x784 .f32) (harg2 : arg2.IsWhole) (arg3 : Memref sig .tc .vmem S784x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (x0 : Vec F S512x784 .f32) (x1 : Vec F S784x1024 .f32) (xo3 xo4 : Vec F S8x1024 .f32) :
    out0_B_4 c i arg2 harg2 arg3 harg3 arg4 harg4 arg5 harg5 arg6 harg6 hc0 x0 x1 xo3 xo4 = k0_pay5 x0 x1 xo4 := by
  unfold out0_B_4
  rw [View.read_writes_eq_canon _ _ _ (cover0_B_4 c i arg2 harg2 arg3 harg3 arg4 harg4 arg5 harg5 arg6 harg6 hc0 x0 x1 xo3 xo4)]
  unfold kernelRun0_B
  dsimp only
  rw [View.canon_unit_zero hz]
  simp only [View.readAt_eq_ld, harg2.read_unread, harg3.read_unread, harg5.read_unread, harg6.read_unread, View.ld_unit_zero (S := S512x784) hz, View.ld_unit_zero (S := S784x1024) hz, View.ld_unit_zero (S := S8x1024) hz]
/-! ## The payloads at the extended reals -/

section AtIdeal

/-- A sum of a block over its 512 rows, kept per column: the vector unit's reduction along axis 0 from the zero word. -/
theorem colsum_apply (src : FVec Ideal S512x1024 .f32) (h : S512x1024.Reduces [0] S1024) (hφ : FKind.Formats .f32)
    (hacc : (0x00000000#32 : BitVec 32) = FKind.add.neutral .f32 hφ) (j : Fin 1024) :
    multiReduction .add [0] S1024 src 0x00000000#32 h hφ hacc (ix1 j) = ∑ p : Fin 512, src (ix2 p j) := by
  refine (Ideal.multiReduction_add_single src 0x00000000#32 h hφ hacc (ix1 j)).trans ?_
  refine Finset.sum_congr rfl fun p _ => congrArg src ?_
  funext a
  match a with
  | ⟨0, _⟩ => rfl
  | ⟨1, _⟩ => rfl

/-- The stored block of the hidden matrix: the product of the loaded rows with the loaded weights. -/
theorem pay3_eq (x0 : Vec Ideal S512x784 .f32) (x1 : Vec Ideal S784x1024 .f32) :
    k0_pay3 (F := Ideal) x0 x1 = mm (M := 512) (K := 784) (N := 1024) x0 x1 := by
  unfold k0_pay3
  refine (matmul_plain_zero (M := 512) (K := 784) (N := 1024) (some .fp32) _ _).trans ?_
  exact congrArg (mm (M := 512) (K := 784) (N := 1024) x0) (shapeCast_self _ _)

/-- The first accumulator after the body: what it held plus, in every one of its 8 rows, the block's column sums. -/
theorem pay4_apply (x0 : Vec Ideal S512x784 .f32) (x1 : Vec Ideal S784x1024 .f32) (acc : Vec Ideal S8x1024 .f32)
    (r : Fin 8) (j : Fin 1024) :
    k0_pay4 (F := Ideal) x0 x1 acc (ix2 r j) = acc (ix2 r j) + ∑ p : Fin 512, k0_pay3 (F := Ideal) x0 x1 (ix2 p j) := by
  unfold k0_pay4
  show shapeCast S8x1024 acc _ (ix2 r j)
      + broadcastTo S8x1024 (shapeCast S1x1024 (shapeCast S1x1024 (multiReduction .add [0] S1024 (k0_pay3 (F := Ideal) x0 x1) 0x00000000#32 _ _ _) _) _) _ (ix2 r j) = _
  rw [shapeCast_self, broadcastTo_1b_ab_apply, shapeCast_self, shapeCast_a_1a_apply]
  exact congrArg _ (colsum_apply _ _ _ _ j)

/-- The second accumulator after the body: what it held plus the block's column sums of squares. -/
theorem pay5_apply (x0 : Vec Ideal S512x784 .f32) (x1 : Vec Ideal S784x1024 .f32) (acc : Vec Ideal S8x1024 .f32)
    (r : Fin 8) (j : Fin 1024) :
    k0_pay5 (F := Ideal) x0 x1 acc (ix2 r j)
      = acc (ix2 r j) + ∑ p : Fin 512, k0_pay3 (F := Ideal) x0 x1 (ix2 p j) * k0_pay3 (F := Ideal) x0 x1 (ix2 p j) := by
  unfold k0_pay5
  show shapeCast S8x1024 acc _ (ix2 r j)
      + broadcastTo S8x1024 (shapeCast S1x1024 (shapeCast S1x1024 (multiReduction .add [0] S1024 (mulf (k0_pay3 (F := Ideal) x0 x1) (k0_pay3 (F := Ideal) x0 x1)) 0x00000000#32 _ _ _) _) _) _ (ix2 r j) = _
  rw [shapeCast_self, broadcastTo_1b_ab_apply, shapeCast_self, shapeCast_a_1a_apply]
  exact congrArg _ (colsum_apply _ _ _ _ j)

end AtIdeal

end Cert.KernelIdeal.Region0
end
-- ==== Proof.Region0b.lean ====
/-
  The first region's three output buffers, point by point.

  After every grid point the first output's buffer holds the product of the point's blocks.  The two accumulators are
  reset at the points that are multiples of 64 and continue from the point before at every other point; so after point
  `t` each of their 8 rows holds, from the zero word, the column sums (for the second accumulator the column sums of
  squares) of the blocks of the run of points that began at the last multiple of 64 and ends at `t`.
-/
import proofs.«163994_j9869834846709_2_alg».proof.Proof.Region0a

set_option maxRecDepth 16384

noncomputable section

namespace Cert.KernelIdeal.Region0

open Cert.KernelIdeal Cert.KernelIdeal.Gen Cert.Dense
open Idealize.ShloMosaic Idealize.ShloMosaic.TcCoe Idealize.ShloMosaic.Tactic Idealize.ShloMosaic.ValueIdx Idealize.SL.Sem
open Idealize.ShloMosaic.Pipeline (Dat)

/-! ## The outputs point by point -/

variable (V : (c : Dev nD) → (b : Ref sig .tc) → Buf (Elt Ideal) ((c : Thread nD τ).loc b))

/-- After every point the first output's buffer holds the product of the point's blocks. -/
theorem out2_at (c : Dev nD) (t : Fin cfg0.N) :
    (outsAt0 V c t.val t.isLt).1 = k0_pay3 (F := Ideal) (iblk0 V c 0 t) (iblk0 V c 1 t) := by
  by_cases h0 : t.val % 64 = 0
  · rw [outsAt0_A V c t h0, out0_A_2_eq]
  · rw [outsAt0_B V c t h0, out0_B_2_eq]

/-! ## The accumulators: reset at the multiples of 64, a step elsewhere -/

/-- At a multiple of 64 the first accumulator is the zero block plus the point's column sums. -/
theorem acc3_reset (c : Dev nD) (n : ℕ) (h : n < cfg0.N) (h0 : n % 64 = 0) :
    (outsAt0 V c n h).2.1
      = k0_pay4 (F := Ideal) (iblk0 V c 0 ⟨n, h⟩) (iblk0 V c 1 ⟨n, h⟩) (k0_pay1 (F := Ideal)) := by
  rw [outsAt0_A V c ⟨n, h⟩ h0, out0_A_3_eq]

/-- At any other point the first accumulator is what the point before left plus the point's column sums. -/
theorem acc3_step (c : Dev nD) (n : ℕ) (h : n + 1 < cfg0.N) (hne : ¬(n + 1) % 64 = 0) :
    (outsAt0 V c (n + 1) h).2.1
      = k0_pay4 (F := Ideal) (iblk0 V c 0 ⟨n + 1, h⟩) (iblk0 V c 1 ⟨n + 1, h⟩)
          (outsAt0 V c n (Nat.lt_of_succ_lt h)).2.1 := by
  rw [outsAt0_B V c ⟨n + 1, h⟩ hne, out0_B_3_eq]
  rfl

/-- At a multiple of 64 the second accumulator is the zero block plus the point's column sums of squares. -/
theorem acc4_reset (c : Dev nD) (n : ℕ) (h : n < cfg0.N) (h0 : n % 64 = 0) :
    (outsAt0 V c n h).2.2
      = k0_pay5 (F := Ideal) (iblk0 V c 0 ⟨n, h⟩) (iblk0 V c 1 ⟨n, h⟩) (k0_pay2 (F := Ideal)) := by
  rw [outsAt0_A V c ⟨n, h⟩ h0, out0_A_4_eq]

/-- At any other point the second accumulator is what the point before left plus the point's column sums of squares. -/
theorem acc4_step (c : Dev nD) (n : ℕ) (h : n + 1 < cfg0.N) (hne : ¬(n + 1) % 64 = 0) :
    (outsAt0 V c (n + 1) h).2.2
      = k0_pay5 (F := Ideal) (iblk0 V c 0 ⟨n + 1, h⟩) (iblk0 V c 1 ⟨n + 1, h⟩)
          (outsAt0 V c n (Nat.lt_of_succ_lt h)).2.2 := by
  rw [outsAt0_B V c ⟨n + 1, h⟩ hne, out0_B_4_eq]
  rfl

/-! ## The accumulators as sums over a run of points -/

/-- The column sums of the block of point `n` (zero past the grid). -/
def blkSum (c : Dev nD) (n : ℕ) (j : Fin 1024) : EReal :=
  if h : n < cfg0.N then ∑ p : Fin 512, k0_pay3 (F := Ideal) (iblk0 V c 0 ⟨n, h⟩) (iblk0 V c 1 ⟨n, h⟩) (ix2 p j) else 0

/-- The column sums of squares of the block of point `n` (zero past the grid). -/
def blkSq (c : Dev nD) (n : ℕ) (j : Fin 1024) : EReal :=
  if h : n < cfg0.N then ∑ p : Fin 512, k0_pay3 (F := Ideal) (iblk0 V c 0 ⟨n, h⟩) (iblk0 V c 1 ⟨n, h⟩) (ix2 p j)
      * k0_pay3 (F := Ideal) (iblk0 V c 0 ⟨n, h⟩) (iblk0 V c 1 ⟨n, h⟩) (ix2 p j) else 0

/-- The first accumulator's reset value at point `n`, -/
def reset3 (c : Dev nD) (n : ℕ) (h : n < cfg0.N) : Vec Ideal S8x1024 .f32 :=
  k0_pay4 (F := Ideal) (iblk0 V c 0 ⟨n, h⟩) (iblk0 V c 1 ⟨n, h⟩) (k0_pay1 (F := Ideal))
/-- and its step at point `n` from what the point before left. -/
def step3 (c : Dev nD) (n : ℕ) (h : n < cfg0.N) (acc : Vec Ideal S8x1024 .f32) : Vec Ideal S8x1024 .f32 :=
  k0_pay4 (F := Ideal) (iblk0 V c 0 ⟨n, h⟩) (iblk0 V c 1 ⟨n, h⟩) acc
/-- The second accumulator's reset value at point `n`, -/
def reset4 (c : Dev nD) (n : ℕ) (h : n < cfg0.N) : Vec Ideal S8x1024 .f32 :=
  k0_pay5 (F := Ideal) (iblk0 V c 0 ⟨n, h⟩) (iblk0 V c 1 ⟨n, h⟩) (k0_pay2 (F := Ideal))
/-- and its step. -/
def step4 (c : Dev nD) (n : ℕ) (h : n < cfg0.N) (acc : Vec Ideal S8x1024 .f32) : Vec Ideal S8x1024 .f32 :=
  k0_pay5 (F := Ideal) (iblk0 V c 0 ⟨n, h⟩) (iblk0 V c 1 ⟨n, h⟩) acc

/-- The reset value at an entry: the zero word plus the point's column sum. -/
theorem reset3_apply (c : Dev nD) (n : ℕ) (h : n < cfg0.N) (r : Fin 8) (j : Fin 1024) :
    reset3 V c n h (ix2 r j) = Ideal.ofBits .f32 0x00000000#32 + blkSum V c n j := by
  unfold reset3 blkSum
  rw [pay4_apply, dif_pos h]
  rfl

/-- The step at an entry: what was there plus the point's column sum. -/
theorem step3_apply (c : Dev nD) (n : ℕ) (h : n < cfg0.N) (acc : Vec Ideal S8x1024 .f32) (r : Fin 8) (j : Fin 1024) :
    step3 V c n h acc (ix2 r j) = acc (ix2 r j) + blkSum V c n j := by
  unfold step3 blkSum
  rw [pay4_apply, dif_pos h]

theorem reset4_apply (c : Dev nD) (n : ℕ) (h : n < cfg0.N) (r : Fin 8) (j : Fin 1024) :
    reset4 V c n h (ix2 r j) = Ideal.ofBits .f32 0x00000000#32 + blkSq V c n j := by
  unfold reset4 blkSq
  rw [pay5_apply, dif_pos h]
  rfl

theorem step4_apply (c : Dev nD) (n : ℕ) (h : n < cfg0.N) (acc : Vec Ideal S8x1024 .f32) (r : Fin 8) (j : Fin 1024) :
    step4 V c n h acc (ix2 r j) = acc (ix2 r j) + blkSq V c n j := by
  unfold step4 blkSq
  rw [pay5_apply, dif_pos h]

/-- The first accumulator after point `t`: zero plus the column sums of the blocks of the run of points that began at
    the last multiple of 64. -/
theorem acc3_at (c : Dev nD) (t : Fin cfg0.N) (r : Fin 8) (j : Fin 1024) :
    (outsAt0 V c t.val t.isLt).2.1 (ix2 r j)
      = Ideal.ofBits .f32 0x00000000#32 + ∑ s ∈ Finset.range (t.val % 64 + 1), blkSum V c (64 * (t.val / 64) + s) j := by
  have hN : cfg0.N = 128 := N_0
  have ht : t.val < 128 := lt_of_lt_of_eq t.isLt hN
  have h' : 64 * (t.val / 64) + t.val % 64 < cfg0.N := by rw [Nat.div_add_mod]; exact t.isLt
  have key : (outsAt0 V c t.val t.isLt).2.1
      = Pipeline.accAt (reset3 V c) (step3 V c) (64 * (t.val / 64)) (t.val % 64) h' :=
    Pipeline.eq_accAt_of_mod (N := cfg0.N) (α := Vec Ideal S8x1024 .f32) (fun n h => (outsAt0 V c n h).2.1) 64
      (reset3 V c) (step3 V c) (acc3_reset V c) (acc3_step V c) (by norm_num) t.val t.isLt h'
  rw [key]
  exact Pipeline.accAt_add_apply (ι := S8x1024.Idx) (β := EReal) (reset3 V c) (step3 V c)
    (fun _ => Ideal.ofBits .f32 0x00000000#32) (fun n i => blkSum V c n (i 1)) (64 * (t.val / 64)) 63
    (fun h i => by
      obtain ⟨r', j', rfl⟩ : ∃ (r' : Fin 8) (j' : Fin 1024), i = ix2 r' j' := ⟨i 0, i 1, eq_ix2 i⟩
      exact reset3_apply V c _ h r' j')
    (fun n h acc i _ _ => by
      obtain ⟨r', j', rfl⟩ : ∃ (r' : Fin 8) (j' : Fin 1024), i = ix2 r' j' := ⟨i 0, i 1, eq_ix2 i⟩
      exact step3_apply V c n h acc r' j')
    (t.val % 64) (by omega) h' (ix2 r j)

/-- The second accumulator after point `t`, likewise with the sums of squares. -/
theorem acc4_at (c : Dev nD) (t : Fin cfg0.N) (r : Fin 8) (j : Fin 1024) :
    (outsAt0 V c t.val t.isLt).2.2 (ix2 r j)
      = Ideal.ofBits .f32 0x00000000#32 + ∑ s ∈ Finset.range (t.val % 64 + 1), blkSq V c (64 * (t.val / 64) + s) j := by
  have hN : cfg0.N = 128 := N_0
  have ht : t.val < 128 := lt_of_lt_of_eq t.isLt hN
  have h' : 64 * (t.val / 64) + t.val % 64 < cfg0.N := by rw [Nat.div_add_mod]; exact t.isLt
  have key : (outsAt0 V c t.val t.isLt).2.2
      = Pipeline.accAt (reset4 V c) (step4 V c) (64 * (t.val / 64)) (t.val % 64) h' :=
    Pipeline.eq_accAt_of_mod (N := cfg0.N) (α := Vec Ideal S8x1024 .f32) (fun n h => (outsAt0 V c n h).2.2) 64
      (reset4 V c) (step4 V c) (acc4_reset V c) (acc4_step V c) (by norm_num) t.val t.isLt h'
  rw [key]
  exact Pipeline.accAt_add_apply (ι := S8x1024.Idx) (β := EReal) (reset4 V c) (step4 V c)
    (fun _ => Ideal.ofBits .f32 0x00000000#32) (fun n i => blkSq V c n (i 1)) (64 * (t.val / 64)) 63
    (fun h i => by
      obtain ⟨r', j', rfl⟩ : ∃ (r' : Fin 8) (j' : Fin 1024), i = ix2 r' j' := ⟨i 0, i 1, eq_ix2 i⟩
      exact reset4_apply V c _ h r' j')
    (fun n h acc i _ _ => by
      obtain ⟨r', j', rfl⟩ : ∃ (r' : Fin 8) (j' : Fin 1024), i = ix2 r' j' := ⟨i 0, i 1, eq_ix2 i⟩
      exact step4_apply V c n h acc r' j')
    (t.val % 64) (by omega) h' (ix2 r j)

end Cert.KernelIdeal.Region0
end
-- ==== Proof.Norm.lean ====
/-
  The two spellings of one batch normalisation, as functions of extended reals, and the kernel's spelling of the sign.

  A column of the hidden layer is a family `h : Fin N → EReal`.  The reference centres first: with `mu = (0 + Σ h) / n`
  and `var = (0 + Σ (h − mu)²) / n` an entry `x` of the column goes to `(g · (x − mu)) · rsqrt (var + ε) + b`.
  The kernel is handed the two sums `S1 = Σ h` and `S2 = Σ h²`, forms `mu = S1 / n` and
  `var = max (S2 / n − mu · mu) 0`, folds the affine map into a scale `g · r` and a shift `b − (g · mu) · r` with
  `r = rsqrt (var + ε)`, and sends `x` to `x · scale + shift`.  Here `n` is the f32 word of 65536 and `ε` the f32 word
  nearest 1e-5, the same words in both programs, kept as words.
  The kernel takes the sign of a value `v` as: where `|v| > 0`, the word 1.0 carrying `v`'s sign, read as
  "−1 if `v < 0`, else 1"; elsewhere `v` itself.
-/
import Idealize.ShloMosaic.PureOps.Ideal
import Idealize.ShloMosaic.PureOps.Ideal.Laws

noncomputable section

namespace Cert.BatchSign

open Idealize.ShloMosaic

/-- The f32 word of 65536, the number of rows. -/
abbrev wN : EReal := Ideal.ofBits .f32 0x47800000#32
/-- The f32 word nearest 1e-5. -/
abbrev wEps : EReal := Ideal.ofBits .f32 0x3727C5AC#32
/-- The f32 word of zero. -/
abbrev w0 : EReal := Ideal.ofBits .f32 0x00000000#32

/-- The reference's mean of a column. -/
def refMu {N : ℕ} (h : Fin N → EReal) : EReal := Ideal.div (w0 + ∑ k, h k) wN

/-- The reference's variance of a column: the mean of the squared deviations. -/
def refVar {N : ℕ} (h : Fin N → EReal) : EReal :=
  Ideal.div (w0 + ∑ k, (h k - refMu h) * (h k - refMu h)) wN

/-- The reference's normalised entry: centre, scale by `g` and the reciprocal root, add `b`. -/
def refNorm {N : ℕ} (h : Fin N → EReal) (g b x : EReal) : EReal :=
  ((g * (x - refMu h)) * Ideal.rsqrt (refVar h + wEps)) + b

/-- The kernel's reciprocal root from the two column sums. -/
def kerR (S1 S2 : EReal) : EReal :=
  Ideal.rsqrt (max (Ideal.div S2 wN - Ideal.div S1 wN * Ideal.div S1 wN) w0 + wEps)

/-- The kernel's normalised entry: the affine map folded into a scale and a shift. -/
def kerNorm (S1 S2 g b x : EReal) : EReal :=
  (x * (g * kerR S1 S2)) + (b - ((g * Ideal.div S1 wN) * kerR S1 S2))

/-- The kernel's sign of `v`. -/
def kerSign (v : EReal) : EReal :=
  Scalar.select (Ideal.cmp .ogt (max v (-v)) w0)
    (Scalar.select (Ideal.cmp .olt v w0) (Ideal.ofBits .f32 0xBF800000#32) (Ideal.ofBits .f32 0x3F800000#32)) v

end Cert.BatchSign

end
-- ==== Proof.LibTiledSum.lean ====
/-
  Sums over tiles of consecutive numbers, with a masked tail; and the signed maximum and minimum of two words.

  `sum_tiles`: a sum over `a` tiles of `b` consecutive numbers is the sum over the first `a * b` numbers.
  `sum_head`: a sum over `n + k` numbers of a function that vanishes from `n` on is the sum over the first `n`.
  `sum_tiles_head`: the tiles cover at least `n` numbers; the numbers from `n` on count zero; the total is the sum
  over the first `n` — the shape of a reduction over a padded array whose padding rows are masked before each tile is
  summed. All three hold in any commutative monoid (so on the extended reals, with no finiteness).
  `maxsi_comm`, `minsi_comm`: the signed maximum and minimum of two words of any width do not depend on the order of
  the operands (a clip written `max(x, lo)` on one side and `max(lo, x)` on the other).
-/
import Idealize.ShloMosaic.PureOps.Ideal

noncomputable section

namespace Cert.TiledSum

open Idealize.ShloMosaic

/-- A sum over `a` tiles of `b` consecutive numbers is the sum over the first `a * b` numbers. -/
theorem sum_tiles {M : Type*} [AddCommMonoid M] (a b : ℕ) (f : ℕ → M) :
    ∑ t : Fin a, ∑ r : Fin b, f (t.val * b + r.val) = ∑ n : Fin (a * b), f n.val := by
  rw [← Equiv.sum_comp finProdFinEquiv (fun n : Fin (a * b) => f n.val), Fintype.sum_prod_type]
  refine Finset.sum_congr rfl fun t _ => Finset.sum_congr rfl fun r _ => ?_
  congr 1
  show t.val * b + r.val = r.val + b * t.val
  rw [Nat.mul_comm, Nat.add_comm]

/-- A sum over `n + k` numbers of a function that vanishes from `n` on is the sum over the first `n`. -/
theorem sum_head {M : Type*} [AddCommMonoid M] (n k : ℕ) (f : ℕ → M) (hf : ∀ i, n ≤ i → f i = 0) :
    ∑ i : Fin (n + k), f i.val = ∑ i : Fin n, f i.val := by
  rw [Fin.sum_univ_add]
  have : ∑ i : Fin k, f (Fin.natAdd n i).val = 0 :=
    Finset.sum_eq_zero fun i _ => hf _ (by simp only [Fin.coe_natAdd]; omega)
  rw [this, add_zero]
  rfl

/-- `a` tiles of `b` numbers cover the first `n` numbers; the numbers from `n` on count zero: the tiles' sums add up to
    the sum over the first `n`. -/
theorem sum_tiles_head {M : Type*} [AddCommMonoid M] (a b n : ℕ) (hn : n ≤ a * b) (F : Fin n → M) :
    ∑ t : Fin a, ∑ r : Fin b, (if h : t.val * b + r.val < n then F ⟨t.val * b + r.val, h⟩ else 0)
      = ∑ i : Fin n, F i := by
  have h1 := sum_tiles a b (fun i => if h : i < n then F ⟨i, h⟩ else 0)
  have h2 := sum_head n (a * b - n) (fun i => if h : i < n then F ⟨i, h⟩ else 0) (fun i hi => dif_neg (by omega))
  have h3 : ∑ i : Fin (a * b), (fun i => if h : i < n then F ⟨i, h⟩ else 0) i.val
      = ∑ i : Fin (n + (a * b - n)), (fun i => if h : i < n then F ⟨i, h⟩ else 0) i.val :=
    Fintype.sum_equiv (finCongr (by omega)) _ _ (fun _ => rfl)
  refine (h1.trans (h3.trans h2)).trans (Finset.sum_congr rfl fun i _ => ?_)
  exact dif_pos i.isLt

/-- The signed maximum of two words does not depend on the order of the operands. -/
theorem maxsi_comm {w : ℕ} (a b : BitVec w) : IntOp.maxsi a b = IntOp.maxsi b a := by
  unfold IntOp.maxsi
  by_cases h1 : b.slt a = true <;> by_cases h2 : a.slt b = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

/-- The signed minimum of two words does not depend on the order of the operands. -/
theorem minsi_comm {w : ℕ} (a b : BitVec w) : IntOp.minsi a b = IntOp.minsi b a := by
  unfold IntOp.minsi
  by_cases h1 : a.slt b = true <;> by_cases h2 : b.slt a = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

end Cert.TiledSum

end
-- ==== Proof.TwoCoreSum.lean ====
/-
  A column sum taken in two halves of sixty-four tiles.

  A column of 65536 entries is summed as two halves; each half is summed, from the zero word, as 64 tiles of 512
  consecutive entries.  The zero word is zero, the extended reals are a commutative monoid under addition, and the
  tiles of a half are consecutive, so the two halves add up to the sum over all 65536 entries.  No finiteness is
  used.  A second small fact: a family over `Fin n`, extended by zero to the naturals, sums over `Fin n` to the
  same total.
-/
import proofs.«163994_j9869834846709_2_alg».proof.Proof.Norm
import proofs.«163994_j9869834846709_2_alg».proof.Proof.LibTiledSum

noncomputable section

open scoped BigOperators

namespace Cert.TwoCoreSum

open Idealize.ShloMosaic

/-- A sum over `a` tiles of `b` consecutive numbers, over ranges, is the sum over the first `a * b` numbers. -/
theorem sum_range_tiles {M : Type*} [AddCommMonoid M] (a b : ℕ) (G : ℕ → M) :
    ∑ s ∈ Finset.range a, ∑ p ∈ Finset.range b, G (b * s + p) = ∑ n ∈ Finset.range (a * b), G n := by
  have h := Cert.TiledSum.sum_tiles a b G
  rw [Finset.sum_range (fun n => G n), ← h, Finset.sum_range]
  refine Finset.sum_congr rfl fun t _ => ?_
  rw [Finset.sum_range]
  refine Finset.sum_congr rfl fun r _ => ?_
  rw [Nat.mul_comm]

/-- One half of the column: from the zero word, 64 tiles of 512 consecutive entries, the half `q` starting at entry
    `512 * 64 * q`. -/
def core (F : ℕ → EReal) (q : ℕ) : EReal :=
  Cert.BatchSign.w0 + ∑ s ∈ Finset.range 64, ∑ p ∈ Finset.range 512, F (512 * (64 * q + s) + p)

/-- The two halves add up to the sum over the whole column. -/
theorem two_core_total (F : ℕ → EReal) : core F 0 + core F 1 = ∑ b : Fin 65536, F b.val := by
  have hw : Cert.BatchSign.w0 = 0 := Ideal.ofBits_zero_f32
  have h0 : core F 0 = ∑ n ∈ Finset.range (64 * 512), F n := by
    unfold core
    rw [hw, zero_add, ← sum_range_tiles 64 512 F]
    refine Finset.sum_congr rfl fun s _ => Finset.sum_congr rfl fun p _ => ?_
    rw [Nat.mul_zero, Nat.zero_add]
  have h1 : core F 1 = ∑ n ∈ Finset.range (64 * 512), F (64 * 512 + n) := by
    unfold core
    rw [hw, zero_add, ← sum_range_tiles 64 512 (fun n => F (64 * 512 + n))]
    refine Finset.sum_congr rfl fun s _ => Finset.sum_congr rfl fun p _ => ?_
    show F (512 * (64 * 1 + s) + p) = F (64 * 512 + (512 * s + p))
    congr 1
    omega
  rw [h0, h1, ← Finset.sum_range_add]
  exact Finset.sum_range F

/-- A family over `Fin n`, extended by zero to the naturals, sums over `Fin n` to the family's own sum. -/
theorem sum_fin_ext {n : ℕ} (g : Fin n → EReal) :
    ∑ b : Fin n, (fun k : ℕ => if h : k < n then g ⟨k, h⟩ else 0) b.val = ∑ b : Fin n, g b := by
  refine Finset.sum_congr rfl fun b _ => ?_
  show (if h : b.val < n then g ⟨b.val, h⟩ else 0) = g b
  rw [dif_pos b.isLt]

end Cert.TwoCoreSum

end
-- ==== Proof.Region0c.lean ====
/-
  The first region's three output arrays after its run, as functions of the arrays it found.
  The grid is 2 cores × 64 points; point `t` loads rows [512·t, 512·t + 512) of the input and the whole first weight
  matrix.  The hidden matrix's blocks tile its rows, so it ends as the product of the input with the weights.  Each
  accumulator array has one 8-row block per core, written back at the core's last point, when it holds zero plus the
  column sums (of squares) of the core's 64 blocks of the hidden matrix; one row of each core's block, added, is the
  column sum over all 65536 rows.
-/
import proofs.«163994_j9869834846709_2_alg».proof.Proof.Region0b
import proofs.«163994_j9869834846709_2_alg».proof.Proof.TwoCoreSum

set_option maxRecDepth 16384

noncomputable section

namespace Cert.KernelIdeal.Region0

open Cert.KernelIdeal Cert.KernelIdeal.Gen Cert.Dense
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-! ## The blocks the body loads -/

/-- The printed index maps over the grid: the row block of the input and of the hidden matrix is the point's number,
    the accumulators' block is the core's number, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val / 64 ∧ win0_3.index t (1 : Fin 2) = 0
    ∧ win0_4.index t (0 : Fin 2) = t.val / 64 ∧ win0_4.index t (1 : Fin 2) = 0 :=
  (by decide +kernel : ∀ t : Fin grid0.N, _)

/-- The first window's block at point `t` is rows [512·t, 512·t + 512) of the input. -/
theorem iblk_rows (c : Dev nD) (t : Fin cfg0.N) (x : S512x784.Idx) (k : S65536x784.Idx)
    (hk0 : (k 0).val = 512 * t.val + (x 0).val) (hk1 : (k 1).val = (x 1).val) :
    (iblk0 V c 0 t : Vec Ideal S512x784 .f32) x = (V c (Pipeline.arrRef spec0 0) : S65536x784.Idx → EReal) k := by
  obtain ⟨e00, e01, -⟩ := idx_facts0 t
  unfold iblk0
  rw [View.read_apply]
  show (V c (Pipeline.arrRef spec0 0) : S65536x784.Idx → EReal) (((cfg0.win 0).blk t).view.emb x) = _
  refine congrArg (V c (Pipeline.arrRef spec0 0) : S65536x784.Idx → EReal) (funext fun a => Fin.ext ?_)
  match a with
  | ⟨0, _⟩ => show win0_0.index t (0 : Fin 2) * 512 + 1 * (x 0).val = (k 0).val; rw [e00, hk0]; omega
  | ⟨1, _⟩ => show win0_0.index t (1 : Fin 2) * 784 + 1 * (x 1).val = (k 1).val; rw [e01, hk1]; omega

/-- The first weight matrix is loaded whole. -/
theorem iblk_weights (c : Dev nD) (t : Fin cfg0.N) :
    (iblk0 V c 1 t : Vec Ideal S784x1024 .f32) = (V c (Pipeline.arrRef spec0 1) : S784x1024.Idx → EReal) := by
  obtain ⟨-, -, e10, e11, -⟩ := idx_facts0 t
  funext x
  unfold iblk0
  rw [View.read_apply]
  show (V c (Pipeline.arrRef spec0 1) : S784x1024.Idx → EReal) (((cfg0.win 1).blk t).view.emb x) = _
  refine congrArg (V c (Pipeline.arrRef spec0 1) : S784x1024.Idx → EReal) (funext fun a => Fin.ext ?_)
  match a with
  | ⟨0, _⟩ => show win0_1.index t (0 : Fin 2) * 784 + 1 * (x 0).val = (x 0).val; rw [e10]; omega
  | ⟨1, _⟩ => show win0_1.index t (1 : Fin 2) * 1024 + 1 * (x 1).val = (x 1).val; rw [e11]; omega

/-- The block law of a product: on rows [512·tv, 512·tv + 512) of the left factor it gives those rows of the product. -/
theorem mm_block (x0 : Mat 512 784) (x1 : Mat 784 1024) (X : Mat 65536 784) (W : Mat 784 1024) (tv : ℕ)
    (h0 : ∀ (x : (⟨2, ![512, 784]⟩ : Shape).Idx) (k : (⟨2, ![65536, 784]⟩ : Shape).Idx),
      (k 0).val = 512 * tv + (x 0).val → (k 1).val = (x 1).val → x0 x = X k)
    (h1 : x1 = W) (y : (⟨2, ![512, 1024]⟩ : Shape).Idx) (i : (⟨2, ![65536, 1024]⟩ : Shape).Idx)
    (hi0 : (i 0).val = 512 * tv + (y 0).val) (hi1 : (i 1).val = (y 1).val) :
    mm x0 x1 y = mm X W i := by
  subst h1
  obtain ⟨p, j, rfl⟩ : ∃ (p : Fin 512) (j : Fin 1024), y = ix2 p j := ⟨y 0, y 1, eq_ix2 y⟩
  obtain ⟨P, J, rfl⟩ : ∃ (P : Fin 65536) (J : Fin 1024), i = ix2 P J := ⟨i 0, i 1, eq_ix2 i⟩
  have hJ : J = j := Fin.ext hi1
  subst hJ
  show (∑ k : Fin 784, x0 (ix2 p k) * x1 (ix2 k J)) = ∑ k : Fin 784, X (ix2 P k) * x1 (ix2 k J)
  refine Finset.sum_congr rfl fun k _ => ?_
  rw [h0 (ix2 p k) (ix2 P k) hi0 rfl]

/-- The hidden matrix: the input times the first weight matrix, of the arrays as the region finds them. -/
def hidden (c : Dev nD) : Mat 65536 1024 :=
  mm (M := 65536) (K := 784) (N := 1024) (V c (Pipeline.arrRef spec0 0)) (V c (Pipeline.arrRef spec0 1))

/-- An entry of the product of point `t`'s blocks is the entry of the hidden matrix at the shifted row. -/
theorem pay3_block (c : Dev nD) (t : Fin cfg0.N) (y : S512x1024.Idx) (i : S65536x1024.Idx)
    (hi0 : (i 0).val = 512 * t.val + (y 0).val) (hi1 : (i 1).val = (y 1).val) :
    k0_pay3 (F := Ideal) (iblk0 V c 0 t) (iblk0 V c 1 t) y = hidden V c i := by
  rw [pay3_eq]
  exact mm_block (iblk0 V c 0 t) (iblk0 V c 1 t) (V c (Pipeline.arrRef spec0 0)) (V c (Pipeline.arrRef spec0 1)) t.val
    (fun x k hk0 hk1 => iblk_rows V c t x k hk0 hk1) (iblk_weights V c t) y i hi0 hi1

/-! ## The hidden matrix after the run -/

theorem flushed2_eq (c : Dev nD) (t : Fin cfg0.N) :
    (dat0 V c).flushed 2 t = ((cfg0.win 2).blk t).view.read (Elt Ideal) (hidden V c) := by
  obtain ⟨-, -, -, -, e20, e21, -⟩ := idx_facts0 t
  show (cfg0.win 2).cut (grid0.coords t) ((dat0 V c).after 2 t) = _
  rw [after0_2, out2_at]
  funext y
  refine pay3_block V c t y (((cfg0.win 2).blk t).view.emb y) ?_ ?_
  · show win0_2.index t (0 : Fin 2) * 512 + 1 * (y 0).val = 512 * t.val + (y 0).val
    rw [e20]; omega
  · show win0_2.index t (1 : Fin 2) * 1024 + 1 * (y 1).val = (y 1).val
    rw [e21]; omega

theorem mem_blk2 (t : Fin cfg0.N) (i : S65536x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v19_0).slice (win0_2.rect t)).set ↔ _
  rw [View.set_slice_whole, Rect.mem_set_unit]
  exact Iff.rfl

theorem cover2 (i : S65536x1024.Idx) : ∃ t : Fin cfg0.N, (cfg0.win 2).flush t = true ∧ i ∈ ((cfg0.win 2).blk t).view.set := by
  have hi0 : (i 0).val < 65536 := (i 0).isLt
  have hi1 : (i 1).val < 1024 := (i 1).isLt
  have ht : (i 0).val / 512 < cfg0.N := by show (i 0).val / 512 < 128; omega
  obtain ⟨-, -, -, -, e20, e21, -⟩ := idx_facts0 ⟨(i 0).val / 512, ht⟩
  refine ⟨⟨(i 0).val / 512, ht⟩, flush0_2 _, ?_⟩
  rw [mem_blk2]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e20]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val ∧ (i 1).val < win0_2.index ⟨(i 0).val / 512, ht⟩ (1 : Fin 2) * 1024 + 1024
    rw [e21]; omega

/-- After the last point the first output array is the hidden matrix. -/
theorem final2 (c : Dev nD) : (dat0 V c).arrAt 2 cfg0.N = hidden V c :=
  (dat0 V c).arrAt_eq_of_cover 2 _ (fun t _ => flushed2_eq V c t) cover2

/-! ## The accumulator arrays after the run -/

/-- The first accumulator array as the region leaves it: each of the 8 rows of core `q`'s block holds zero plus the
    column sums of the 64 blocks of that core's run. -/
def sums (c : Dev nD) : Mat 16 1024 :=
  fun i => Ideal.ofBits .f32 0x00000000#32 + ∑ s ∈ Finset.range 64, blkSum V c (64 * ((i 0).val / 8) + s) (i 1)

theorem sums_point (c : Dev nD) (t : Fin cfg0.N) (h63 : t.val % 64 = 63) (y : S8x1024.Idx) (i : S16x1024.Idx)
    (hi0 : (i 0).val = t.val / 64 * 8 + (y 0).val) (hi1 : (i 1).val = (y 1).val) :
    (outsAt0 V c t.val t.isLt).2.1 y = sums V c i := by
  obtain ⟨r, j, rfl⟩ : ∃ (r : Fin 8) (j : Fin 1024), y = ix2 r j := ⟨y 0, y 1, eq_ix2 y⟩
  rw [acc3_at V c t r j, h63]
  unfold sums
  have hr : r.val < 8 := r.isLt
  have hq : (i 0).val / 8 = t.val / 64 := by
    have : (i 0).val = t.val / 64 * 8 + r.val := hi0
    omega
  have hj : i 1 = j := Fin.ext hi1
  rw [hq, hj]

theorem flushed3_eq (c : Dev nD) (t : Fin cfg0.N) (hf : (cfg0.win 3).flush t = true) :
    (dat0 V c).flushed 3 t = ((cfg0.win 3).blk t).view.read (Elt Ideal) (sums V c) := by
  have h63 : t.val % 64 = 63 := (flush0_3 t).mp hf
  obtain ⟨-, -, -, -, -, -, e30, e31, e40, e41⟩ := idx_facts0 t
  show (cfg0.win 3).cut (grid0.coords t) ((dat0 V c).after 3 t) = _
  rw [after0_3]
  funext y
  refine sums_point V c t h63 y (((cfg0.win 3).blk t).view.emb y) ?_ ?_
  · show win0_3.index t (0 : Fin 2) * 8 + 1 * (y 0).val = t.val / 64 * 8 + (y 0).val
    rw [e30]; omega
  · show win0_3.index t (1 : Fin 2) * 1024 + 1 * (y 1).val = (y 1).val
    rw [e31]; omega

theorem mem_blk3 (t : Fin cfg0.N) (i : S16x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v19_1).slice (win0_3.rect t)).set ↔ _
  rw [View.set_slice_whole, Rect.mem_set_unit]
  exact Iff.rfl

theorem cover3 (i : S16x1024.Idx) : ∃ t : Fin cfg0.N, (cfg0.win 3).flush t = true ∧ i ∈ ((cfg0.win 3).blk t).view.set := by
  have hi0 : (i 0).val < 16 := (i 0).isLt
  have hi1 : (i 1).val < 1024 := (i 1).isLt
  have ht : 64 * ((i 0).val / 8) + 63 < cfg0.N := by show 64 * ((i 0).val / 8) + 63 < 128; omega
  obtain ⟨-, -, -, -, -, -, e30, e31, e40, e41⟩ := idx_facts0 ⟨64 * ((i 0).val / 8) + 63, ht⟩
  refine ⟨⟨64 * ((i 0).val / 8) + 63, ht⟩, (flush0_3 _).mpr (by show (64 * ((i 0).val / 8) + 63) % 64 = 63; omega), ?_⟩
  rw [mem_blk3]
  intro a
  match a with
  | ⟨0, _⟩ =>
    show win0_3.index ⟨64 * ((i 0).val / 8) + 63, ht⟩ (0 : Fin 2) * 8 ≤ (i 0).val ∧ (i 0).val < win0_3.index ⟨64 * ((i 0).val / 8) + 63, ht⟩ (0 : Fin 2) * 8 + 8
    rw [e30]; show (64 * ((i 0).val / 8) + 63) / 64 * 8 ≤ (i 0).val ∧ (i 0).val < (64 * ((i 0).val / 8) + 63) / 64 * 8 + 8; omega
  | ⟨1, _⟩ =>
    show win0_3.index ⟨64 * ((i 0).val / 8) + 63, ht⟩ (1 : Fin 2) * 1024 ≤ (i 1).val ∧ (i 1).val < win0_3.index ⟨64 * ((i 0).val / 8) + 63, ht⟩ (1 : Fin 2) * 1024 + 1024
    rw [e31]; omega

theorem final3 (c : Dev nD) : (dat0 V c).arrAt 3 cfg0.N = sums V c :=
  (dat0 V c).arrAt_eq_of_cover 3 _ (fun t hf => flushed3_eq V c t hf) cover3

/-- The second accumulator array as the region leaves it: each of the 8 rows of core `q`'s block holds zero plus the
    column sums of squares of the 64 blocks of that core's run. -/
def sqs (c : Dev nD) : Mat 16 1024 :=
  fun i => Ideal.ofBits .f32 0x00000000#32 + ∑ s ∈ Finset.range 64, blkSq V c (64 * ((i 0).val / 8) + s) (i 1)

theorem sqs_point (c : Dev nD) (t : Fin cfg0.N) (h63 : t.val % 64 = 63) (y : S8x1024.Idx) (i : S16x1024.Idx)
    (hi0 : (i 0).val = t.val / 64 * 8 + (y 0).val) (hi1 : (i 1).val = (y 1).val) :
    (outsAt0 V c t.val t.isLt).2.2 y = sqs V c i := by
  obtain ⟨r, j, rfl⟩ : ∃ (r : Fin 8) (j : Fin 1024), y = ix2 r j := ⟨y 0, y 1, eq_ix2 y⟩
  rw [acc4_at V c t r j, h63]
  unfold sqs
  have hr : r.val < 8 := r.isLt
  have hq : (i 0).val / 8 = t.val / 64 := by
    have : (i 0).val = t.val / 64 * 8 + r.val := hi0
    omega
  have hj : i 1 = j := Fin.ext hi1
  rw [hq, hj]

theorem flushed4_eq (c : Dev nD) (t : Fin cfg0.N) (hf : (cfg0.win 4).flush t = true) :
    (dat0 V c).flushed 4 t = ((cfg0.win 4).blk t).view.read (Elt Ideal) (sqs V c) := by
  have h63 : t.val % 64 = 63 := (flush0_4 t).mp hf
  obtain ⟨-, -, -, -, -, -, e30, e31, e40, e41⟩ := idx_facts0 t
  show (cfg0.win 4).cut (grid0.coords t) ((dat0 V c).after 4 t) = _
  rw [after0_4]
  funext y
  refine sqs_point V c t h63 y (((cfg0.win 4).blk t).view.emb y) ?_ ?_
  · show win0_4.index t (0 : Fin 2) * 8 + 1 * (y 0).val = t.val / 64 * 8 + (y 0).val
    rw [e40]; omega
  · show win0_4.index t (1 : Fin 2) * 1024 + 1 * (y 1).val = (y 1).val
    rw [e41]; omega

theorem mem_blk4 (t : Fin cfg0.N) (i : S16x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v19_2).slice (win0_4.rect t)).set ↔ _
  rw [View.set_slice_whole, Rect.mem_set_unit]
  exact Iff.rfl

theorem cover4 (i : S16x1024.Idx) : ∃ t : Fin cfg0.N, (cfg0.win 4).flush t = true ∧ i ∈ ((cfg0.win 4).blk t).view.set := by
  have hi0 : (i 0).val < 16 := (i 0).isLt
  have hi1 : (i 1).val < 1024 := (i 1).isLt
  have ht : 64 * ((i 0).val / 8) + 63 < cfg0.N := by show 64 * ((i 0).val / 8) + 63 < 128; omega
  obtain ⟨-, -, -, -, -, -, e30, e31, e40, e41⟩ := idx_facts0 ⟨64 * ((i 0).val / 8) + 63, ht⟩
  refine ⟨⟨64 * ((i 0).val / 8) + 63, ht⟩, (flush0_4 _).mpr (by show (64 * ((i 0).val / 8) + 63) % 64 = 63; omega), ?_⟩
  rw [mem_blk4]
  intro a
  match a with
  | ⟨0, _⟩ =>
    show win0_4.index ⟨64 * ((i 0).val / 8) + 63, ht⟩ (0 : Fin 2) * 8 ≤ (i 0).val ∧ (i 0).val < win0_4.index ⟨64 * ((i 0).val / 8) + 63, ht⟩ (0 : Fin 2) * 8 + 8
    rw [e40]; show (64 * ((i 0).val / 8) + 63) / 64 * 8 ≤ (i 0).val ∧ (i 0).val < (64 * ((i 0).val / 8) + 63) / 64 * 8 + 8; omega
  | ⟨1, _⟩ =>
    show win0_4.index ⟨64 * ((i 0).val / 8) + 63, ht⟩ (1 : Fin 2) * 1024 ≤ (i 1).val ∧ (i 1).val < win0_4.index ⟨64 * ((i 0).val / 8) + 63, ht⟩ (1 : Fin 2) * 1024 + 1024
    rw [e41]; omega

theorem final4 (c : Dev nD) : (dat0 V c).arrAt 4 cfg0.N = sqs V c :=
  (dat0 V c).arrAt_eq_of_cover 4 _ (fun t hf => flushed4_eq V c t hf) cover4

/-! ## The two cores' partial sums together -/

/-- A column of the hidden matrix, continued by zero past its 65536 rows. -/
def colExt (c : Dev nD) (j : Fin 1024) : ℕ → EReal :=
  fun b => if h : b < 65536 then hidden V c (ix2 ⟨b, h⟩ j) else 0

theorem blkSum_eq (c : Dev nD) (n : ℕ) (hn : n < 128) (j : Fin 1024) :
    blkSum V c n j = ∑ p ∈ Finset.range 512, colExt V c j (512 * n + p) := by
  have hN : n < cfg0.N := lt_of_lt_of_eq hn N_0.symm
  unfold blkSum
  rw [dif_pos hN, ← Fin.sum_univ_eq_sum_range (fun p => colExt V c j (512 * n + p)) 512]
  refine Finset.sum_congr rfl fun p _ => ?_
  have hp := p.isLt
  have hb : 512 * n + p.val < 65536 := by omega
  unfold colExt
  rw [dif_pos hb, pay3_block V c ⟨n, hN⟩ (ix2 p j) (ix2 ⟨512 * n + p.val, hb⟩ j) rfl rfl]

/-- Row 0 plus row 8 of the accumulator array — one row of each core's block — is the sum over all 65536 rows. -/
theorem total_sums (c : Dev nD) (j : Fin 1024) :
    sums V c (ix2 (0 : Fin 16) j) + sums V c (ix2 (8 : Fin 16) j)
      = ∑ b : Fin 65536, (fun b : Fin 65536 => hidden V c (ix2 b j)) b := by
  have e0 : sums V c (ix2 (0 : Fin 16) j) = Cert.TwoCoreSum.core (colExt V c j) 0 := by
    unfold sums Cert.TwoCoreSum.core
    have hv : ((ix2 (0 : Fin 16) j) 0).val = 0 := rfl
    have hq : ((ix2 (0 : Fin 16) j) 0).val / 8 = 0 := by rw [hv]
    have hj : (ix2 (0 : Fin 16) j) 1 = j := rfl
    simp only [hq, hj]
    refine congrArg _ (Finset.sum_congr rfl fun s hs => ?_)
    exact blkSum_eq V c (64 * 0 + s) (by have := Finset.mem_range.mp hs; omega) j
  have e1 : sums V c (ix2 (8 : Fin 16) j) = Cert.TwoCoreSum.core (colExt V c j) 1 := by
    unfold sums Cert.TwoCoreSum.core
    have hv : ((ix2 (8 : Fin 16) j) 0).val = 8 := rfl
    have hq : ((ix2 (8 : Fin 16) j) 0).val / 8 = 1 := by rw [hv]
    have hj : (ix2 (8 : Fin 16) j) 1 = j := rfl
    simp only [hq, hj]
    refine congrArg _ (Finset.sum_congr rfl fun s hs => ?_)
    exact blkSum_eq V c (64 * 1 + s) (by have := Finset.mem_range.mp hs; omega) j
  rw [e0, e1, Cert.TwoCoreSum.two_core_total]
  exact Cert.TwoCoreSum.sum_fin_ext (fun b : Fin 65536 => hidden V c (ix2 b j))

/-- The squares of a column of the hidden matrix, continued by zero past its 65536 rows. -/
def colSqExt (c : Dev nD) (j : Fin 1024) : ℕ → EReal :=
  fun b => if h : b < 65536 then hidden V c (ix2 ⟨b, h⟩ j) * hidden V c (ix2 ⟨b, h⟩ j) else 0

theorem blkSq_eq (c : Dev nD) (n : ℕ) (hn : n < 128) (j : Fin 1024) :
    blkSq V c n j = ∑ p ∈ Finset.range 512, colSqExt V c j (512 * n + p) := by
  have hN : n < cfg0.N := lt_of_lt_of_eq hn N_0.symm
  unfold blkSq
  rw [dif_pos hN, ← Fin.sum_univ_eq_sum_range (fun p => colSqExt V c j (512 * n + p)) 512]
  refine Finset.sum_congr rfl fun p _ => ?_
  have hp := p.isLt
  have hb : 512 * n + p.val < 65536 := by omega
  unfold colSqExt
  rw [dif_pos hb, pay3_block V c ⟨n, hN⟩ (ix2 p j) (ix2 ⟨512 * n + p.val, hb⟩ j) rfl rfl]

/-- Row 0 plus row 8 of the accumulator array — one row of each core's block — is the sum over all 65536 rows. -/
theorem total_sqs (c : Dev nD) (j : Fin 1024) :
    sqs V c (ix2 (0 : Fin 16) j) + sqs V c (ix2 (8 : Fin 16) j)
      = ∑ b : Fin 65536, (fun b : Fin 65536 => hidden V c (ix2 b j) * hidden V c (ix2 b j)) b := by
  have e0 : sqs V c (ix2 (0 : Fin 16) j) = Cert.TwoCoreSum.core (colSqExt V c j) 0 := by
    unfold sqs Cert.TwoCoreSum.core
    have hv : ((ix2 (0 : Fin 16) j) 0).val = 0 := rfl
    have hq : ((ix2 (0 : Fin 16) j) 0).val / 8 = 0 := by rw [hv]
    have hj : (ix2 (0 : Fin 16) j) 1 = j := rfl
    simp only [hq, hj]
    refine congrArg _ (Finset.sum_congr rfl fun s hs => ?_)
    exact blkSq_eq V c (64 * 0 + s) (by have := Finset.mem_range.mp hs; omega) j
  have e1 : sqs V c (ix2 (8 : Fin 16) j) = Cert.TwoCoreSum.core (colSqExt V c j) 1 := by
    unfold sqs Cert.TwoCoreSum.core
    have hv : ((ix2 (8 : Fin 16) j) 0).val = 8 := rfl
    have hq : ((ix2 (8 : Fin 16) j) 0).val / 8 = 1 := by rw [hv]
    have hj : (ix2 (8 : Fin 16) j) 1 = j := rfl
    simp only [hq, hj]
    refine congrArg _ (Finset.sum_congr rfl fun s hs => ?_)
    exact blkSq_eq V c (64 * 1 + s) (by have := Finset.mem_range.mp hs; omega) j
  rw [e0, e1, Cert.TwoCoreSum.two_core_total]
  exact Cert.TwoCoreSum.sum_fin_ext (fun b : Fin 65536 => hidden V c (ix2 b j) * hidden V c (ix2 b j))

end Cert.KernelIdeal.Region0
end
-- ==== Proof.HostGlue0.lean ====
/-
  The kernel program's first stretch of host operations, read against the reference.

  Before its first region the kernel program binarises the two weight matrices on the host: the absolute values of a
  weight's rows are summed from zero and divided by the row length, the quotient is broadcast along the row and
  multiplied by the sign of the weight, and the result is transposed.  These are, operation for operation, the
  reference's own binarisations; the kernel then stores the second one in a narrower float format, which on the
  extended reals changes nothing.  So when the first region is entered the two buffers hold the reference's
  transposed binarised weights of the launch contents of the two weight arguments.
-/
import proofs.«163994_j9869834846709_2_alg».proof.Proof.Gen.KernelIdeal.Frame
import proofs.«163994_j9869834846709_2_alg».proof.Proof.Gen.ReferenceIdeal.Read

noncomputable section

namespace Cert.KernelIdeal.HostGlue0

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- At the first region's entry the first weight buffer holds the reference's transposed binarised first weight. -/
theorem W1_v8 :
    (W1 m ρ c (Proc.devRef .tc main_v8) : S784x1024.Idx → EReal)
      = Cert.ReferenceIdeal.Read.val_main_v8 (F := Ideal) (m ((c : Thread nD τ).loc main_arg1)) := by
  dsimp only [W1, W0, hostOps0]
  after_results
  rfl

/-- At the first region's entry the second weight buffer holds the reference's transposed binarised second weight:
    the change to the narrower float format is the identity on the extended reals. -/
theorem W1_v18 :
    (W1 m ρ c (Proc.devRef .tc main_v18) : S1024x10.Idx → EReal)
      = Cert.ReferenceIdeal.Read.val_main_v44 (F := Ideal) (m ((c : Thread nD τ).loc main_arg2)) := by
  dsimp only [W1, W0, hostOps0]
  after_results
  rfl

end Cert.KernelIdeal.HostGlue0

end
-- ==== Proof.RefRead.lean ====
/-
  The reference program read as mathematics.

  The reference is a two-layer binarised network with a batch normalisation between the layers.  Its hidden layer is a
  matrix product of the input with the transposed binarised first weight; every column of the hidden layer is
  normalised with the column's own mean and variance, scaled and shifted, and its sign taken; the output is the matrix
  product of those signs with the transposed binarised second weight.  Here each of these stages is identified with
  the plain mathematical object: the two products with the matrix product on the extended reals, an entry of the
  activation with the sign of the normalised entry of the hidden column.  The hidden layer itself is kept as an opaque
  matrix throughout the reading of the normalisation.  Last, on real inputs the binarised weight and the hidden layer
  are real at every entry.
-/
import proofs.«163994_j9869834846709_2_alg».proof.Proof.Gen.ReferenceIdeal.Read
import proofs.«163994_j9869834846709_2_alg».proof.Proof.Norm
import proofs.«163994_j9869834846709_2_alg».proof.Proof.LibDense

noncomputable section

open scoped BigOperators

namespace Cert.RefRead

open Idealize.ShloMosaic Idealize.ShloMosaic.ValueIdx Cert.ReferenceIdeal Cert.ReferenceIdeal.Gen Cert.ReferenceIdeal.Read Cert.BatchSign

/-- An array of extended reals over a shape. -/
abbrev Arr (s : Shape) : Type := (⟨s, .f32⟩ : BufTy).Contents (Elt Ideal)

/-! ## The two matrix products -/

/-- The hidden layer is the product of the input with the transposed binarised weight. -/
theorem hidden_eq (x0 : Arr S65536x784) (x1 : Arr S1024x784) :
    val_main_v9 (F := Ideal) x0 x1 = Cert.Dense.mm x0 (val_main_v8 (F := Ideal) x1) := by
  unfold val_main_v9
  exact Cert.Dense.dotGeneral_plain (M := 65536) (K := 784) (N := 1024) (φ₁ := .f32) (φ₂ := .f32) x0 (val_main_v8 (F := Ideal) x1)

/-- The output is the product of the activation with the transposed binarised second weight. -/
theorem out_eq (x0 : Arr S65536x784) (x1 : Arr S1024x784) (x2 : Arr S10x1024) (x3 x4 : Arr S1024) :
    val_main_v45 (F := Ideal) x0 x1 x2 x3 x4
      = Cert.Dense.mm (val_main_v35 (F := Ideal) x0 x1 x3 x4) (val_main_v44 (F := Ideal) x2) := by
  unfold val_main_v45
  exact Cert.Dense.dotGeneral_plain (M := 65536) (K := 1024) (N := 10) (φ₁ := .f32) (φ₂ := .f32)
    (val_main_v35 (F := Ideal) x0 x1 x3 x4) (val_main_v44 (F := Ideal) x2)

/-! ## The normalisation of a hidden column -/

section norm

variable (x0 : Arr S65536x784) (x1 : Arr S1024x784)

/-- The mean row at column `j` is the mean of the hidden column `j`. -/
theorem mean_entry (j : Fin 1024) :
    val_main_v12 (F := Ideal) x0 x1 (ix1 j)
      = refMu (fun k : Fin 65536 => val_main_v9 (F := Ideal) x0 x1 (ix2 k j)) := by
  rw [val_main_v12_apply, val_main_v10_apply, val_main_v11_apply, val_main_cst_2_apply, val_main_cst_1_apply]
  generalize val_main_v9 (F := Ideal) x0 x1 = H
  unfold refMu
  simp only [Ideal.hostDivf_def, Ideal.ofBits_def]
  refine congrArg (fun s => Ideal.div (w0 + s) wN) (Finset.sum_congr rfl fun k _ => ?_)
  exact congrArg H (funext fun a => by match a with | ⟨0, _⟩ => rfl | ⟨1, _⟩ => rfl)

/-- The variance row at column `j` is the mean squared deviation of the hidden column `j`. -/
theorem var_entry (j : Fin 1024) :
    val_main_v19 (F := Ideal) x0 x1 (ix1 j)
      = refVar (fun k : Fin 65536 => val_main_v9 (F := Ideal) x0 x1 (ix2 k j)) := by
  rw [val_main_v19_apply, val_main_v17_apply, val_main_v18_apply, val_main_cst_4_apply, val_main_cst_3_apply]
  unfold refVar
  simp only [Ideal.hostDivf_def, Ideal.ofBits_def]
  refine congrArg (fun s => Ideal.div (w0 + s) wN) (Finset.sum_congr rfl fun k _ => ?_)
  have hk : idx_main_v17 (ix1 j) k = ix2 k j :=
    funext fun a => by match a with | ⟨0, _⟩ => rfl | ⟨1, _⟩ => rfl
  have hj : idx_main_v13 (idx_main_v14 (ix2 k j)) = ix1 j :=
    funext fun a => by match a with | ⟨0, _⟩ => rfl
  rw [hk, val_main_v16_apply, val_main_v15_apply, val_main_v14_apply, val_main_v13_apply, hj, mean_entry]
  rfl

/-- An entry of the activation is the sign of the normalised entry of its hidden column. -/
theorem act_entry (x3 x4 : Arr S1024) (p : Fin 65536) (j : Fin 1024) :
    val_main_v35 (F := Ideal) x0 x1 x3 x4 (ix2 p j)
      = Ideal.sign (refNorm (fun k : Fin 65536 => val_main_v9 (F := Ideal) x0 x1 (ix2 k j)) (x3 (ix1 j)) (x4 (ix1 j))
          (val_main_v9 (F := Ideal) x0 x1 (ix2 p j))) := by
  have h1 : idx_main_v32 (idx_main_v33 (ix2 p j)) = ix1 j :=
    funext fun a => by match a with | ⟨0, _⟩ => rfl
  have h2 : idx_main_v29 (idx_main_v30 (ix2 p j)) = ix1 j :=
    funext fun a => by match a with | ⟨0, _⟩ => rfl
  have h3 : idx_main_v23 (idx_main_v24 (ix2 p j)) = ix1 j :=
    funext fun a => by match a with | ⟨0, _⟩ => rfl
  have h4 : idx_main_v20 (idx_main_v21 (ix2 p j)) = ix1 j :=
    funext fun a => by match a with | ⟨0, _⟩ => rfl
  rw [val_main_v35_apply, val_main_v34_apply, val_main_v31_apply, val_main_v33_apply, val_main_v32_apply, h1,
    val_main_v25_apply, val_main_v30_apply, val_main_v29_apply, h2, val_main_v28_apply, val_main_v27_apply,
    val_main_v26_apply, val_main_cst_5_apply, val_main_v24_apply, val_main_v23_apply, h3, val_main_v22_apply,
    val_main_v21_apply, val_main_v20_apply, h4, mean_entry, var_entry]
  generalize val_main_v9 (F := Ideal) x0 x1 = H
  unfold refNorm
  rfl

end norm

/-! ## Real inputs give real weights and a real hidden layer -/

section real

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is a real. -/
theorem real_sum {ι : Type} (s : Finset ι) (f : ι → EReal) (h : ∀ k ∈ s, ∃ r : ℝ, f k = (r : EReal)) :
    ∃ r : ℝ, ∑ k ∈ s, f k = (r : EReal) :=
  Finset.sum_induction f (fun x => ∃ r : ℝ, x = (r : EReal)) (fun _ _ ha hb => real_add ha hb)
    ⟨0, EReal.coe_zero.symm⟩ h

/-- The absolute value of a real, taken as the larger of it and its negation, is a real. -/
theorem real_abs {x : EReal} (hx : ∃ r : ℝ, x = (r : EReal)) : ∃ r : ℝ, max x (-x) = (r : EReal) := by
  obtain ⟨a, rfl⟩ := hx
  rcases max_choice (a : EReal) (-(a : EReal)) with h | h
  · exact ⟨a, h⟩
  · exact ⟨-a, h.trans (EReal.coe_neg a).symm⟩

/-- The sign of a real is a real. -/
theorem real_sign {x : EReal} (hx : ∃ r : ℝ, x = (r : EReal)) : ∃ r : ℝ, Ideal.sign x = (r : EReal) := by
  obtain ⟨a, rfl⟩ := hx
  exact ⟨_, Ideal.sign_coe a⟩

/-- The f32 word 0x44440000 is 784. -/
theorem word_784 : Ideal.ofBits .f32 0x44440000#32 = ((784 : ℝ) : EReal) := by
  simp [Ideal.ofBits, Ideal.ieee]
  rw [← EReal.coe_mul]
  norm_num

/-- A real divided by the word of 784 is a real. -/
theorem real_div_784 {x : EReal} (hx : ∃ r : ℝ, x = (r : EReal)) :
    ∃ r : ℝ, Ideal.div x (Ideal.ofBits .f32 0x44440000#32) = (r : EReal) := by
  rw [word_784, Ideal.div_coe (by norm_num : (784 : ℝ) ≠ 0)]
  exact real_mul hx ⟨_, rfl⟩

/-- The transposed binarised weight: its entry (k, j) is the mean absolute value of row j of the weight times the sign of
    the weight's entry (j, k).  On a real weight every entry is real. -/
theorem weights_real (x1 : Arr S1024x784) (hx : ∀ i, ∃ r : ℝ, x1 i = (r : EReal)) :
    ∀ i, ∃ r : ℝ, val_main_v8 (F := Ideal) x1 i = (r : EReal) := by
  intro i
  rw [val_main_v8_apply, val_main_v7_apply, val_main_v6_apply, val_main_v5_apply, val_main_v4_apply, val_main_v3_apply,
    val_main_cst_0_apply, val_main_v2_apply, val_main_v1_apply, val_main_cst_apply]
  simp only [Ideal.mulf_def, Ideal.hostDivf_def, Ideal.ofBits_def, Ideal.hostUnary_sign_def]
  refine real_mul (real_div_784 (real_add ⟨0, by rw [Ideal.ofBits_zero_f32, EReal.coe_zero]⟩
    (real_sum _ _ fun k _ => ?_))) (real_sign (hx _))
  rw [val_main_v0_apply]
  exact real_abs (hx _)

/-- On real inputs every entry of the hidden layer is real: it is a finite sum of products of reals. -/
theorem hidden_real (x0 : Arr S65536x784) (x1 : Arr S1024x784) (h0 : ∀ i, ∃ r : ℝ, x0 i = (r : EReal))
    (h1 : ∀ i, ∃ r : ℝ, x1 i = (r : EReal)) : ∀ i, ∃ r : ℝ, val_main_v9 (F := Ideal) x0 x1 i = (r : EReal) := by
  intro i
  rw [hidden_eq]
  exact real_sum _ _ fun k _ => real_mul (h0 _) (weights_real x1 h1 _)

end real

end Cert.RefRead

end
-- ==== Proof.Back.lean ====
/-
  From the kernel's last boundary back to the arguments.  No host operation of the first stretch and no window of the
  first region writes an argument array, so the arguments read at the first two boundaries are the launch memory.  The
  hidden matrix the first region leaves is the input times the transposed binarised first weights — the reference's own
  hidden matrix —, and row 0 plus row 8 of each accumulator array is that matrix's column sum, resp. column sum of
  squares, over all 65536 rows.
-/
import proofs.«163994_j9869834846709_2_alg».proof.Proof.Region0c
import proofs.«163994_j9869834846709_2_alg».proof.Proof.HostGlue0
import proofs.«163994_j9869834846709_2_alg».proof.Proof.RefRead

set_option maxRecDepth 16384

noncomputable section

namespace Cert.KernelIdeal.Back

open Cert.KernelIdeal Cert.KernelIdeal.Gen Cert.Dense
open Idealize.ShloMosaic Idealize.ShloMosaic.TcCoe Idealize.ShloMosaic.ValueIdx Idealize.SL.Sem
open Cert.ReferenceIdeal.Read (val_main_v8 val_main_v9)

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg4 : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg3 : W2 m ρ c (Proc.devRef .tc main_arg3) = m ((c : Thread nD τ).loc main_arg3) :=
  (W2_of_ne m ρ c main_arg3 (by decide)).trans (W1_arg3 m ρ c)

theorem W2_arg4 : W2 m ρ c (Proc.devRef .tc main_arg4) = m ((c : Thread nD τ).loc main_arg4) :=
  (W2_of_ne m ρ c main_arg4 (by decide)).trans (W1_arg4 m ρ c)

/-- The reference's hidden matrix of the launch memory's arguments. -/
abbrev H : S65536x1024.Idx → EReal :=
  val_main_v9 (F := Ideal) (m ((c : Thread nD τ).loc main_arg0)) (m ((c : Thread nD τ).loc main_arg1))

/-- The first region's hidden matrix, of the arrays as it found them, is the reference's. -/
theorem hidden_eq : Region0.hidden (V1 m ρ) c = H m c := by
  unfold Region0.hidden H
  rw [Cert.RefRead.hidden_eq]
  refine congr (congrArg (mm (M := 65536) (K := 784) (N := 1024)) ?_) ?_
  · exact W1_arg0 m ρ c
  · exact Cert.KernelIdeal.HostGlue0.W1_v8 m ρ c

/-- At the first region's exit the hidden array holds the reference's hidden matrix. -/
theorem W2_hidden : (W2 m ρ c (Proc.devRef .tc main_v19_0) : S65536x1024.Idx → EReal) = H m c :=
  ((W2_arr m ρ c 2).trans (Region0.final2 (V1 m ρ) c)).trans (hidden_eq m ρ c)

/-- The first accumulator array at the first region's exit. -/
abbrev A3 : S16x1024.Idx → EReal := W2 m ρ c (Proc.devRef .tc main_v19_1)
/-- The second accumulator array at the first region's exit. -/
abbrev A4 : S16x1024.Idx → EReal := W2 m ρ c (Proc.devRef .tc main_v19_2)

/-- Row 0 plus row 8 of the first accumulator array is the hidden matrix's column sum. -/
theorem total1 (k : Fin 1024) :
    A3 m ρ c (ix2 (0 : Fin 16) k) + A3 m ρ c (ix2 (8 : Fin 16) k) = ∑ b : Fin 65536, H m c (ix2 b k) := by
  have e : A3 m ρ c = Region0.sums (V1 m ρ) c := (W2_arr m ρ c 3).trans (Region0.final3 (V1 m ρ) c)
  rw [e, Region0.total_sums, hidden_eq]

/-- Row 0 plus row 8 of the second accumulator array is the hidden matrix's column sum of squares. -/
theorem total2 (k : Fin 1024) :
    A4 m ρ c (ix2 (0 : Fin 16) k) + A4 m ρ c (ix2 (8 : Fin 16) k)
      = ∑ b : Fin 65536, H m c (ix2 b k) * H m c (ix2 b k) := by
  have e : A4 m ρ c = Region0.sqs (V1 m ρ) c := (W2_arr m ρ c 4).trans (Region0.final4 (V1 m ρ) c)
  rw [e, Region0.total_sqs, hidden_eq]

end Cert.KernelIdeal.Back

end
-- ==== Proof.HostGlue1.lean ====
/-
  The host stretch between the two pipelined regions, read entry by entry.

  Between the regions the program turns the first region's two accumulator arrays (each 16 rows of 1024 columns,
  of which rows 0 and 8 hold the two halves of a column's sum) and the arguments gamma, beta into a scale row and a
  shift row: per column `j`, with `S1 j` and `S2 j` the sums of rows 0 and 8 of the two accumulators,
  `mu = S1 j / n`, `r = rsqrt (max (S2 j / n − mu · mu) 0 + ε)`, the scale is `gamma j · r` and the shift is
  `beta j − (gamma j · mu) · r`.  Every operation of the stretch is pointwise, a slice, a cast between `[1024]`
  and `[1, 1024]`, or the broadcast of a constant, so an entry of the result is the same expression of the
  entries of the operands.  The stretch writes neither the hidden-layer array nor the second weight array.
-/
import proofs.«163994_j9869834846709_2_alg».proof.Proof.Gen.KernelIdeal.Frame
import proofs.«163994_j9869834846709_2_alg».proof.Proof.Norm
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostGlue1

open Cert.KernelIdeal Cert.KernelIdeal.Gen Cert.BatchSign Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

/-! ### What the stretch leaves alone -/

/-- No operation of the stretch writes the hidden-layer array. -/
theorem keep_hidden : W3 m ρ c (Proc.devRef .tc main_v19_0) = W2 m ρ c (Proc.devRef .tc main_v19_0) :=
  StableHlo.after_of_forall_not_mem (b := Proc.devRef .tc main_v19_0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- No operation of the stretch writes the second weight array. -/
theorem keep_w2 : W3 m ρ c (Proc.devRef .tc main_v18) = W2 m ρ c (Proc.devRef .tc main_v18) :=
  StableHlo.after_of_forall_not_mem (b := Proc.devRef .tc main_v18) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ### The stretch as functions of its operands

Each definition below is the stretch's own composition of array operations, with the operand arrays as
parameters; the `_apply` lemma beside it reads it at a column. -/

/-- A constant word broadcast to a row of 1024 entries. -/
def bc (w : BitVec 32) : S1024.Idx → EReal :=
  broadcastInDim S1024 ![] bcast_S_S1024 (constant (F := Ideal) S_ .f32 w)

/-- Every entry of a broadcast word is the word. -/
theorem bc_apply (w : BitVec 32) (j : Fin 1024) : bc w (ix1 j) = Ideal.ofBits .f32 w := rfl

/-- Row 0 plus row 8 of an accumulator, as a row of 1024 entries: each row is sliced out as a `[1, 1024]` array
    and cast to `[1024]`. -/
def total (A : S16x1024.Idx → EReal) : S1024.Idx → EReal :=
  addf (F := Ideal) (φ := .f32)
    (shapeCast S1024 (extractStridedSlice S1x1024 ![0, 0] A slices_S16x1024_S1x1024_0_0) shapeCasts_S1x1024_S1024)
    (shapeCast S1024 (extractStridedSlice S1x1024 ![8, 0] A slices_S16x1024_S1x1024_8_0) shapeCasts_S1x1024_S1024)

/-- At column `j` the total is the accumulator's entry in row 0 plus its entry in row 8. -/
theorem total_apply (A : S16x1024.Idx → EReal) (j : Fin 1024) :
    total A (ix1 j) = A (ix2 (0 : Fin 16) j) + A (ix2 (8 : Fin 16) j) := by
  unfold total
  rw [addf_apply, shapeCast_1a_a_apply, shapeCast_1a_a_apply,
    slice2_axis0_apply 0 A slices_S16x1024_S1x1024_0_0 (0 : Fin 1) j (0 : Fin 16) rfl,
    slice2_axis0_apply 8 A slices_S16x1024_S1x1024_8_0 (0 : Fin 1) j (8 : Fin 16) rfl]

/-- The mean row: the first accumulator's total over the row count. -/
def muRow (A3 : S16x1024.Idx → EReal) : S1024.Idx → EReal :=
  Host.divf (F := Ideal) (φ := .f32) (total A3) (bc 0x47800000#32)

theorem muRow_apply (A3 : S16x1024.Idx → EReal) (j : Fin 1024) :
    muRow A3 (ix1 j) = Ideal.div (A3 (ix2 (0 : Fin 16) j) + A3 (ix2 (8 : Fin 16) j)) wN := by
  show Ideal.div (total A3 (ix1 j)) (bc 0x47800000#32 (ix1 j)) = _
  rw [total_apply, bc_apply]

/-- The reciprocal-root row: `rsqrt (max (total₂ / n − mu · mu) 0 + ε)`. -/
def rRow (A3 A4 : S16x1024.Idx → EReal) : S1024.Idx → EReal :=
  Host.rsqrt (F := Ideal) (φ := .f32)
    (addf
      (maximumf
        (subf (Host.divf (total A4) (bc 0x47800000#32)) (mulf (muRow A3) (muRow A3)))
        (bc 0x00000000#32))
      (bc 0x3727C5AC#32))

theorem rRow_apply (A3 A4 : S16x1024.Idx → EReal) (j : Fin 1024) :
    rRow A3 A4 (ix1 j)
      = kerR (A3 (ix2 (0 : Fin 16) j) + A3 (ix2 (8 : Fin 16) j)) (A4 (ix2 (0 : Fin 16) j) + A4 (ix2 (8 : Fin 16) j)) := by
  show Ideal.rsqrt (max (Ideal.div (total A4 (ix1 j)) (bc 0x47800000#32 (ix1 j)) - muRow A3 (ix1 j) * muRow A3 (ix1 j))
      (bc 0x00000000#32 (ix1 j)) + bc 0x3727C5AC#32 (ix1 j)) = _
  rw [muRow_apply, total_apply, bc_apply, bc_apply, bc_apply]
  rfl

/-- The scale row: `gamma · r`, cast to `[1, 1024]`. -/
def scaleRow (A3 A4 : S16x1024.Idx → EReal) (g : S1024.Idx → EReal) : S1x1024.Idx → EReal :=
  shapeCast S1x1024 (mulf (F := Ideal) (φ := .f32) g (rRow A3 A4)) shapeCasts_S1024_S1x1024

theorem scaleRow_apply (A3 A4 : S16x1024.Idx → EReal) (g : S1024.Idx → EReal) (j : Fin 1024) :
    scaleRow A3 A4 g (ix2 (0 : Fin 1) j)
      = g (ix1 j) * kerR (A3 (ix2 (0 : Fin 16) j) + A3 (ix2 (8 : Fin 16) j)) (A4 (ix2 (0 : Fin 16) j) + A4 (ix2 (8 : Fin 16) j)) := by
  unfold scaleRow
  rw [shapeCast_a_1a_apply, mulf_apply, rRow_apply]

/-- The shift row: `beta − (gamma · mu) · r`, cast to `[1, 1024]`. -/
def shiftRow (A3 A4 : S16x1024.Idx → EReal) (g b : S1024.Idx → EReal) : S1x1024.Idx → EReal :=
  shapeCast S1x1024 (subf (F := Ideal) (φ := .f32) b (mulf (mulf g (muRow A3)) (rRow A3 A4))) shapeCasts_S1024_S1x1024

theorem shiftRow_apply (A3 A4 : S16x1024.Idx → EReal) (g b : S1024.Idx → EReal) (j : Fin 1024) :
    shiftRow A3 A4 g b (ix2 (0 : Fin 1) j)
      = b (ix1 j) - (g (ix1 j) * Ideal.div (A3 (ix2 (0 : Fin 16) j) + A3 (ix2 (8 : Fin 16) j)) wN)
          * kerR (A3 (ix2 (0 : Fin 16) j) + A3 (ix2 (8 : Fin 16) j)) (A4 (ix2 (0 : Fin 16) j) + A4 (ix2 (8 : Fin 16) j)) := by
  unfold shiftRow
  rw [shapeCast_a_1a_apply, subf_apply, mulf_apply, mulf_apply, rRow_apply, muRow_apply]

/-! ### The arrays the stretch reads and writes, at their types -/

/-- The first accumulator as the first region left it. -/
abbrev A3 : S16x1024.Idx → EReal := W2 m ρ c (Proc.devRef .tc main_v19_1)
/-- The second accumulator as the first region left it. -/
abbrev A4 : S16x1024.Idx → EReal := W2 m ρ c (Proc.devRef .tc main_v19_2)
/-- Gamma. -/
abbrev Gm : S1024.Idx → EReal := W2 m ρ c (Proc.devRef .tc main_arg3)
/-- Beta. -/
abbrev Bt : S1024.Idx → EReal := W2 m ρ c (Proc.devRef .tc main_arg4)
/-- The scale array after the stretch. -/
abbrev Sc : S1x1024.Idx → EReal := W3 m ρ c (Proc.devRef .tc main_v42)
/-- The shift array after the stretch. -/
abbrev Sh : S1x1024.Idx → EReal := W3 m ρ c (Proc.devRef .tc main_v46)

/-! ### The stretch's two results as those functions of the first region's arrays -/

set_option maxHeartbeats 1000000 in
/-- The scale array after the stretch is the scale row of the two accumulators and gamma as the first region left
    them: the stretch's operations composed, each result read where the next operation takes it. -/
theorem scale_stage : Sc m ρ c = scaleRow (A3 m ρ c) (A4 m ρ c) (Gm m ρ c) := by
  show StableHlo.after hostOps1 (W2 m ρ c) (Proc.devRef .tc main_v42) = _
  dsimp only [hostOps1]
  after_results
  rfl

set_option maxHeartbeats 1000000 in
/-- The shift array after the stretch is the shift row of the two accumulators, gamma and beta. -/
theorem shift_stage : Sh m ρ c = shiftRow (A3 m ρ c) (A4 m ρ c) (Gm m ρ c) (Bt m ρ c) := by
  show StableHlo.after hostOps1 (W2 m ρ c) (Proc.devRef .tc main_v46) = _
  dsimp only [hostOps1]
  after_results
  rfl

/-! ### The two results entry by entry -/

/-- The scale at column `j`: gamma times the kernel's reciprocal root of the column's two sums. -/
theorem scale_entry (j : Fin 1024) :
    Sc m ρ c (ix2 (0 : Fin 1) j)
      = Gm m ρ c (ix1 j)
        * kerR (A3 m ρ c (ix2 (0 : Fin 16) j) + A3 m ρ c (ix2 (8 : Fin 16) j))
            (A4 m ρ c (ix2 (0 : Fin 16) j) + A4 m ρ c (ix2 (8 : Fin 16) j)) := by
  rw [scale_stage, scaleRow_apply]

/-- The shift at column `j`: beta minus gamma times the mean times the reciprocal root. -/
theorem shift_entry (j : Fin 1024) :
    Sh m ρ c (ix2 (0 : Fin 1) j)
      = Bt m ρ c (ix1 j)
        - (Gm m ρ c (ix1 j) * Ideal.div (A3 m ρ c (ix2 (0 : Fin 16) j) + A3 m ρ c (ix2 (8 : Fin 16) j)) wN)
          * kerR (A3 m ρ c (ix2 (0 : Fin 16) j) + A3 m ρ c (ix2 (8 : Fin 16) j))
              (A4 m ρ c (ix2 (0 : Fin 16) j) + A4 m ρ c (ix2 (8 : Fin 16) j)) := by
  rw [shift_stage, shiftRow_apply]

end Cert.KernelIdeal.HostGlue1

end
-- ==== Proof.NormLaw.lean ====
/-
  The kernel's folded batch normalisation equals the reference's centred one on a column of finite entries.

  Over the reals, with `n = 65536` rows, `mu = (Σ h) / n`: the mean of the squared deviations
  `(Σ (h k − mu)²) / n` equals `(Σ h k²) / n − mu²` and is nonnegative, so the kernel's `max (·) 0` is the
  identity on it and the two programs take the reciprocal root of one number `var + ε`, which is positive, so the
  root is a real number `r`.  Then `x · (g · r) + (b − (g · mu) · r) = (g · (x − mu)) · r + b` by real algebra.
  Every extended-real expression on either side is the coercion of a real one; the proof pushes the coercion
  outward and finishes in the reals.
-/
import proofs.«163994_j9869834846709_2_alg».proof.Proof.Norm

noncomputable section

namespace Cert.BatchSign

open Idealize.ShloMosaic

/-! ### The three words -/

/-- The word of zero is the extended real `0`. -/
theorem w0_eq : w0 = 0 := Ideal.ofBits_zero_f32

/-- The word `0x47800000` is `2^23 · 2^(143 − 127 − 23) = 65536`. -/
theorem wN_eq : wN = ((65536 : ℝ) : EReal) := by
  simp [wN, Ideal.ofBits, Ideal.ieee]
  rw [← EReal.coe_mul]; norm_num

/-- The word `0x3727C5AC` is `(2^23 + 2606508) · 2^(110 − 127 − 23)`, a positive real. -/
theorem wEps_pos : ∃ e : ℝ, 0 < e ∧ wEps = (e : EReal) := by
  refine ⟨10995116 * ((2:ℝ)^40)⁻¹, by positivity, ?_⟩
  simp [wEps, Ideal.ofBits, Ideal.ieee]

/-- Division by the row count is the product with the real `1 / 65536`. -/
theorem div_wN (y : EReal) : Ideal.div y wN = y * ((1 / 65536 : ℝ) : EReal) := by
  rw [wN_eq]; exact Ideal.div_coe (by norm_num) y

/-! ### Coercion and finite sums -/

/-- The coercion of a finite sum of reals is the sum of the coercions. -/
theorem sum_coe {N : ℕ} (f : Fin N → ℝ) : (∑ k, ((f k : ℝ) : EReal)) = ((∑ k, f k : ℝ) : EReal) := by
  have key : ∀ s : Finset (Fin N), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact key _

/-! ### The real identities -/

/-- The mean of the squared deviations is the mean of the squares minus the squared mean. -/
theorem real_var {N : ℕ} (hN : (N : ℝ) = 65536) (h : Fin N → ℝ) :
    (∑ k, (h k - (∑ j, h j) * (1 / 65536)) * (h k - (∑ j, h j) * (1 / 65536))) * (1 / 65536)
      = (∑ k, h k * h k) * (1 / 65536) - ((∑ j, h j) * (1 / 65536)) * ((∑ j, h j) * (1 / 65536)) := by
  generalize hS : (∑ j, h j) = S
  generalize hm : S * (1 / 65536) = m
  have h1 : ∑ k, (h k - m) * (h k - m) = ∑ k, (h k * h k - (2 * m) * h k + m * m) :=
    Finset.sum_congr rfl fun k _ => by ring
  rw [h1, Finset.sum_add_distrib, Finset.sum_sub_distrib, ← Finset.mul_sum, Finset.sum_const, Finset.card_univ,
    Fintype.card_fin, nsmul_eq_mul, hN, hS, ← hm]
  ring

/-- The mean of the squared deviations is nonnegative. -/
theorem real_var_nonneg {N : ℕ} (h : Fin N → ℝ) (m : ℝ) :
    0 ≤ (∑ k, (h k - m) * (h k - m)) * (1 / 65536) :=
  mul_nonneg (Finset.sum_nonneg fun k _ => mul_self_nonneg _) (by norm_num)

/-- The reciprocal root at a positive real is a real. -/
theorem rsqrt_pos_coe {t : ℝ} (ht : 0 < t) : Ideal.rsqrt (t : EReal) = (((Real.sqrt t)⁻¹ : ℝ) : EReal) := by
  rw [Ideal.rsqrt_coe, if_neg (not_lt.mpr ht.le), if_neg ht.ne']

/-! ### The two programs on a column of finite entries -/

/-- The reference's mean of a finite column is the real mean. -/
theorem refMu_coe {N : ℕ} (h : Fin N → ℝ) :
    refMu (fun k => ((h k : ℝ) : EReal)) = (((∑ j, h j) * (1 / 65536) : ℝ) : EReal) := by
  rw [refMu, w0_eq, zero_add, div_wN, sum_coe, ← EReal.coe_mul]

/-- The reference's variance of a finite column is the real mean of the squared deviations. -/
theorem refVar_coe {N : ℕ} (h : Fin N → ℝ) :
    refVar (fun k => ((h k : ℝ) : EReal))
      = (((∑ k, (h k - (∑ j, h j) * (1 / 65536)) * (h k - (∑ j, h j) * (1 / 65536))) * (1 / 65536) : ℝ) : EReal) := by
  rw [refVar, w0_eq, zero_add, div_wN, refMu_coe]
  simp only [← EReal.coe_sub, ← EReal.coe_mul]
  rw [sum_coe (fun k => (h k - (∑ j, h j) * (1 / 65536)) * (h k - (∑ j, h j) * (1 / 65536))), ← EReal.coe_mul]

/-- The kernel's reciprocal root from the two sums of a finite column is the reference's: the root of the real
    variance plus `ε`. -/
theorem kerR_coe {N : ℕ} (hN : (N : ℝ) = 65536) (h : Fin N → ℝ) (e : ℝ) (he : wEps = (e : EReal)) :
    kerR (∑ k, ((h k : ℝ) : EReal)) (∑ k, ((h k : ℝ) : EReal) * ((h k : ℝ) : EReal))
      = Ideal.rsqrt ((((∑ k, (h k - (∑ j, h j) * (1 / 65536)) * (h k - (∑ j, h j) * (1 / 65536))) * (1 / 65536) : ℝ) : EReal)
          + wEps) := by
  rw [kerR, w0_eq, div_wN, div_wN]
  simp only [← EReal.coe_mul]
  rw [sum_coe h, sum_coe (fun k => h k * h k)]
  simp only [← EReal.coe_mul, ← EReal.coe_sub]
  rw [← real_var hN h, max_eq_left (EReal.coe_nonneg.mpr (real_var_nonneg h _))]

theorem kerNorm_eq_refNorm {N : ℕ} (hN : (N : ℝ) = 65536) (h : Fin N → ℝ) (g b x : ℝ) :
    kerNorm (∑ k, ((h k : ℝ) : EReal)) (∑ k, ((h k : ℝ) : EReal) * ((h k : ℝ) : EReal)) (g : EReal) (b : EReal) (x : EReal)
      = refNorm (fun k => ((h k : ℝ) : EReal)) (g : EReal) (b : EReal) (x : EReal) := by
  obtain ⟨e, he0, he⟩ := wEps_pos
  have hv := real_var_nonneg h ((∑ j, h j) * (1 / 65536))
  rw [kerNorm, refNorm, kerR_coe hN h e he, refVar_coe, refMu_coe, div_wN, sum_coe h, he, ← EReal.coe_add,
    rsqrt_pos_coe (add_pos_of_nonneg_of_pos hv he0)]
  simp only [← EReal.coe_mul, ← EReal.coe_sub, ← EReal.coe_add]
  congr 1
  ring

/-- The kernel's spelling of the sign is the sign. -/
theorem kerSign_eq (v : EReal) : kerSign v = Ideal.sign v := Ideal.jnp_sign_eq_sign_f32 v

end Cert.BatchSign

end
-- ==== Proof.Final.lean ====
/-
  The idealized kernel's result is the reference's.
  Read back from the last boundary: the result array is the product of the binarised activation
  sign (H · scale + shift) with the transposed binarised second weights; H is the reference's hidden matrix; the scale
  and shift rows are gamma · r and beta − (gamma · mu) · r with mu and r formed from the two column sums of H over all
  65536 rows.  So an entry of the activation is the sign of the kernel's spelling of the batch normalisation of a
  column of H, and the reference's activation is the sign of its own spelling.  For finite inputs H, gamma and beta
  are real, and on reals the two spellings are one number: the mean of squared deviations is the mean of squares minus
  the squared mean, it is not negative, so the clip at zero does nothing, and folding the affine map into a scale and a
  shift is the distributive law.
-/
import proofs.«163994_j9869834846709_2_alg».proof.Proof.Region1
import proofs.«163994_j9869834846709_2_alg».proof.Proof.Back
import proofs.«163994_j9869834846709_2_alg».proof.Proof.HostGlue1
import proofs.«163994_j9869834846709_2_alg».proof.Proof.NormLaw

set_option maxRecDepth 16384

noncomputable section

namespace Cert.KernelIdeal.Final

open Cert.KernelIdeal Cert.KernelIdeal.Gen Cert.Dense Cert.BatchSign
open Idealize.ShloMosaic Idealize.ShloMosaic.TcCoe Idealize.ShloMosaic.ValueIdx Idealize.SL.Sem
open Cert.ReferenceIdeal.Read (val_main_v8 val_main_v9 val_main_v35 val_main_v44 val_main_v45)

/-- On a hidden matrix with real entries, and real gamma and beta, the kernel's and the reference's normalisations
    of an entry agree. -/
theorem norm_entry (Hf : (⟨2, ![65536, 1024]⟩ : Shape).Idx → EReal) (hreal : ∀ i, ∃ r : ℝ, Hf i = (r : EReal))
    (g b : ℝ) (P : Fin 65536) (k : Fin 1024) :
    kerNorm (∑ q : Fin 65536, Hf (ix2 q k)) (∑ q : Fin 65536, Hf (ix2 q k) * Hf (ix2 q k)) (g : EReal) (b : EReal) (Hf (ix2 P k))
      = refNorm (fun q : Fin 65536 => Hf (ix2 q k)) (g : EReal) (b : EReal) (Hf (ix2 P k)) := by
  choose hr hhr using hreal
  have e : Hf = fun i => ((hr i : ℝ) : EReal) := funext hhr
  subst e
  exact kerNorm_eq_refNorm (N := 65536) (by norm_num) (fun q => hr (ix2 q k)) g b (hr (ix2 P k))

variable (m : (ℓ : Loc nD τ sig) → Buf (Elt Ideal) ℓ) (ρ : Dev nD → PrngReg) (c : Dev nD)

/-- The kernel's result array, at the last boundary, is the reference's result of the launch memory's arguments,
    when the input, the first weights, gamma and beta are real. -/
theorem kernel_value
    (h0 : ∀ i, ∃ r : ℝ, (m ((c : Thread nD τ).loc main_arg0) : S65536x784.Idx → EReal) i = (r : EReal))
    (h1 : ∀ i, ∃ r : ℝ, (m ((c : Thread nD τ).loc main_arg1) : S1024x784.Idx → EReal) i = (r : EReal))
    (h3 : ∀ i, ∃ r : ℝ, (m ((c : Thread nD τ).loc main_arg3) : S1024.Idx → EReal) i = (r : EReal))
    (h4 : ∀ i, ∃ r : ℝ, (m ((c : Thread nD τ).loc main_arg4) : S1024.Idx → EReal) i = (r : EReal)) :
    (W4 m ρ c (Proc.devRef .tc main_v47) : S65536x10.Idx → EReal)
      = val_main_v45 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine ((W4_arr m ρ c 4).trans (Region1.final (V3 m ρ) c)).trans ?_
  rw [Cert.RefRead.out_eq]
  unfold Region1.result
  have hWk : (V3 m ρ c (Pipeline.arrRef spec1 3) : S1024x10.Idx → EReal)
      = val_main_v44 (F := Ideal) (m ((c : Thread nD τ).loc main_arg2)) :=
    (Cert.KernelIdeal.HostGlue1.keep_w2 m ρ c).trans
      ((W2_of_ne m ρ c main_v18 (by decide)).trans (Cert.KernelIdeal.HostGlue0.W1_v18 m ρ c))
  have hHid : (V3 m ρ c (Pipeline.arrRef spec1 0) : S65536x1024.Idx → EReal) = Back.H m c :=
    (Cert.KernelIdeal.HostGlue1.keep_hidden m ρ c).trans (Back.W2_hidden m ρ c)
  rw [hWk, hHid]
  refine congrArg (fun A => mm (M := 65536) (K := 1024) (N := 10) A (val_main_v44 (F := Ideal) (m ((c : Thread nD τ).loc main_arg2)))) ?_
  funext i
  obtain ⟨P, k, rfl⟩ : ∃ (P : Fin 65536) (k : Fin 1024), i = ix2 P k := ⟨i 0, i 1, eq_ix2 i⟩
  rw [Region1.act_apply, Cert.RefRead.act_entry]
  refine congrArg Ideal.sign ?_
  have hsc := Cert.KernelIdeal.HostGlue1.scale_entry m ρ c k
  have hsh := Cert.KernelIdeal.HostGlue1.shift_entry m ρ c k
  have t1 : Cert.KernelIdeal.HostGlue1.A3 m ρ c (ix2 (0 : Fin 16) k) + Cert.KernelIdeal.HostGlue1.A3 m ρ c (ix2 (8 : Fin 16) k)
      = ∑ q : Fin 65536, Back.H m c (ix2 q k) := Back.total1 m ρ c k
  have t2 : Cert.KernelIdeal.HostGlue1.A4 m ρ c (ix2 (0 : Fin 16) k) + Cert.KernelIdeal.HostGlue1.A4 m ρ c (ix2 (8 : Fin 16) k)
      = ∑ q : Fin 65536, Back.H m c (ix2 q k) * Back.H m c (ix2 q k) := Back.total2 m ρ c k
  have hg3 : Cert.KernelIdeal.HostGlue1.Gm m ρ c = (m ((c : Thread nD τ).loc main_arg3) : S1024.Idx → EReal) := Back.W2_arg3 m ρ c
  have hb4 : Cert.KernelIdeal.HostGlue1.Bt m ρ c = (m ((c : Thread nD τ).loc main_arg4) : S1024.Idx → EReal) := Back.W2_arg4 m ρ c
  rw [t1, t2, hg3] at hsc
  rw [t1, t2, hg3, hb4] at hsh
  show Back.H m c (ix2 P k) * Cert.KernelIdeal.HostGlue1.Sc m ρ c (ix2 (0 : Fin 1) k) + Cert.KernelIdeal.HostGlue1.Sh m ρ c (ix2 (0 : Fin 1) k) = _
  rw [hsc, hsh]
  obtain ⟨g, hg⟩ := h3 (ix1 k)
  obtain ⟨b, hb⟩ := h4 (ix1 k)
  rw [hg, hb]
  exact norm_entry (Back.H m c) (Cert.RefRead.hidden_real _ _ h0 h1) g b P k

end Cert.KernelIdeal.Final

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«163994_j9869834846709_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«163994_j9869834846709_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.InputsReal.lean ====
/-
  The precondition, decoded: every entry of each of the five inputs is a real number.

  The precondition is the conjunction, over the five input arrays, of "every entry has absolute value below +∞".
  A conjunction of two one-bit words is 1 exactly when both are, so the conjunction of five splits into its five
  terms; each term is a conjunction over a whole array that came out 1, so the test holds at every entry, and an
  extended real whose absolute value is below +∞ is neither infinity, hence a real.
-/
import proofs.«163994_j9869834846709_2_alg».proof.Pre_finite_inputs
import proofs.«163994_j9869834846709_2_alg».proof.Proof.LibFinite

noncomputable section

namespace Cert.InputsReal

open Idealize.ShloMosaic Idealize.ShloMosaic.ValueIdx Cert.Pre_finite_inputs

variable [Cert.Pre_finite_inputs.Facts]

/-- If the precondition holds of the five inputs, every entry of every input is real. The conjunction nests to the
    left, `(((c₀ ∧ c₁) ∧ c₂) ∧ c₃) ∧ c₄`, and is peeled from the outside. -/
theorem inputs_real (x0 : FVec Ideal S65536x784 .f32) (x1 : FVec Ideal S1024x784 .f32) (x2 : FVec Ideal S10x1024 .f32)
    (x3 : FVec Ideal S1024 .f32) (x4 : FVec Ideal S1024 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨Cert.Gcn.finite_of_all x0 _ _ _ e0, Cert.Gcn.finite_of_all x1 _ _ _ e1, Cert.Gcn.finite_of_all x2 _ _ _ e2,
    Cert.Gcn.finite_of_all x3 _ _ _ e3, Cert.Gcn.finite_of_all x4 _ _ _ e4⟩

end Cert.InputsReal

end
-- ==== Proof.lean ====
/-
  A two-layer binarised network with batch normalisation between the layers, computed by two pipelined regions, against
  its plain reference.  Both programs binarise the two weight matrices on the host in the same way (a row's mean
  absolute value times the signs).  The first region forms the hidden matrix H = x · bin(w1)ᵀ block by block and, beside
  it, the column sums of H and of H² per core; the host adds the two cores' partial sums and forms, per column,
  mu = Σh / n, var = max (Σh² / n − mu², 0), r = rsqrt (var + ε), a scale gamma · r and a shift beta − gamma · mu · r; the
  second region takes the sign of H · scale + shift and multiplies by bin(w2)ᵀ.  The reference centres first:
  var = mean (h − mu)², and sign (gamma · (h − mu) · r + beta).
  On the extended reals the two agree when the inputs are finite: H, gamma and beta are then real, the mean of squared
  deviations is the mean of squares minus the squared mean and is not negative, so the clip does nothing and the two
  reciprocal roots are one real number, and the affine map folded into a scale and a shift is the distributive law.
  Sums over the 65536 rows in any grouping are equal with no finiteness asked.  The kernel's sign — "where |v| > 0 the
  word 1.0 carrying v's sign, else v" — is the sign function at every extended real; the one entry of the idealisation's
  ledger is that rewrite's own statement.
-/
import proofs.«163994_j9869834846709_2_alg».proof.Defs
import proofs.«163994_j9869834846709_2_alg».proof.Proof.Gen.Kernel
import proofs.«163994_j9869834846709_2_alg».proof.Proof.Gen.Kernel.Skeleton
import proofs.«163994_j9869834846709_2_alg».proof.Proof.Gen.Kernel.Launch
import proofs.«163994_j9869834846709_2_alg».proof.Proof.Gen.Kernel.Points
import proofs.«163994_j9869834846709_2_alg».proof.Proof.Gen.Kernel.Frame
import proofs.«163994_j9869834846709_2_alg».proof.Proof.Gen.KernelIdeal
import proofs.«163994_j9869834846709_2_alg».proof.Proof.Gen.KernelIdeal.Skeleton
import proofs.«163994_j9869834846709_2_alg».proof.Proof.Gen.KernelIdeal.Launch
import proofs.«163994_j9869834846709_2_alg».proof.Proof.Gen.KernelIdeal.Points
import proofs.«163994_j9869834846709_2_alg».proof.Proof.Gen.KernelIdeal.Frame
import proofs.«163994_j9869834846709_2_alg».proof.Proof.Gen.ReferenceIdeal
import proofs.«163994_j9869834846709_2_alg».proof.Proof.Gen.ReferenceIdeal.Run
import proofs.«163994_j9869834846709_2_alg».proof.Proof.Gen.ReferenceIdeal.Read
import proofs.«163994_j9869834846709_2_alg».proof.Proof.Gen.Pre_finite_inputs
import proofs.«163994_j9869834846709_2_alg».proof.Proof.KernelRun
import proofs.«163994_j9869834846709_2_alg».proof.Proof.Final
import proofs.«163994_j9869834846709_2_alg».proof.Proof.InputsReal
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ledger's one entry: the word 1.0 carrying a value's sign bit is −1 where the value is below zero and 1
    elsewhere. -/
theorem preserves : Cert.preserves_Kernel_KernelIdeal :=
  IdealRules.sign_bit.statement Cert.KernelIdeal.S1024x1024 .f32

/-- From memories agreeing on finite arguments both idealized programs end with the reference's result of those
    arguments. -/
theorem algebraic : Cert.algebraic_KernelIdeal_ReferenceIdeal := by
  intro m ρ m' ρ' hpre hagree
  refine ⟨fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.RunValue.run_value (F := Ideal) m ρ)
    obtain ⟨r0, r1, -, r3, r4⟩ := Cert.InputsReal.inputs_real _ _ _ _ _ (hpre c)
    exact ⟨(h c).1.trans (Cert.KernelIdeal.Final.kernel_value m ρ c r0 r1 r3 r4), (h c).2⟩
  · refine (θ_run Cert.ReferenceIdeal.defs _ _).mono (fun r h c => ⟨?_, (h c).2⟩)
      (Cert.ReferenceIdeal.Value.run (F := Ideal) m' ρ')
    obtain ⟨a0, a1, a2, a3, a4⟩ := hagree c
    rw [(h c).1, Cert.ReferenceIdeal.Read.val_main_v45_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
